-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S400000x16 : Shape := ⟨2, ![400000, 16]⟩
abbrev S16x128 : Shape := ⟨2, ![16, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S16x256 : Shape := ⟨2, ![16, 256]⟩
abbrev S2x400000 : Shape := ⟨2, ![2, 400000]⟩
abbrev S200000 : Shape := ⟨1, ![200000]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S400000x16 : S_.BroadcastsInDim S400000x16 (![] : Fin 0 → Fin S400000x16.rank)
  reducesTo_S400000x16_S_d0_1 : S400000x16.ReducesTo [0, 1] S_
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S16x256 : S_.BroadcastsInDim S16x256 (![] : Fin 0 → Fin S16x256.rank)
  reducesTo_S16x256_S_d0_1 : S16x256.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S256 .f32) (main_arg12 : FVec F S256x256 .f32) (main_arg13 : FVec F S256 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg12
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_v63 main_v67

def fn_part2 {F : FTy → Type} [FloatOps F] (main_arg7 : FVec F S256 .f32) (main_arg8 : FVec F S16x256 .f32) (main_arg9 : FVec F S256 .f32) (main_arg10 : FVec F S256x256 .f32) (main_arg11 : FVec F S256 .f32) (main_arg12 : FVec F S256x256 .f32) (main_arg13 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S16x256 .f32 := Host.absf main_arg8
  let main_cst_14 : FVec F S_ .f32 := constant S_ .f32 0x7F800000#32
  let main_v40 : FVec F S16x256 .f32 := broadcastInDim S16x256 ![] bcast_S_S16x256 main_cst_14
  let main_v41 : IVec S16x256 1 := cmpf .olt main_v39 main_v40
  let main_c_15 : IVec S_ 1 := constantI S_ 1 1#1
  let main_v42 : IVec S_ 1 := (fun x v => Host.reduce IntOp.andi x v reducesTo_S16x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_arg13 main_v48 main_v49 main_v50

def fn_part1 {F : FTy → Type} [FloatOps F] (main_arg4 : FVec F S128x256 .f32) (main_arg5 : FVec F S256 .f32) (main_arg6 : FVec F S256x256 .f32) (main_arg7 : FVec F S256 .f32) (main_arg8 : FVec F S16x256 .f32) (main_arg9 : FVec F S256 .f32) (main_arg10 : FVec F S256x256 .f32) (main_arg11 : FVec F S256 .f32) (main_arg12 : FVec F S256x256 .f32) (main_arg13 : FVec F S256 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S200000x128 .f32) (main_arg1 : FVec F S400000x16 .f32) (main_arg2 : FVec F S16x128 .f32) (main_arg3 : FVec F S128 .f32) (main_arg4 : FVec F S128x256 .f32) (main_arg5 : FVec F S256 .f32) (main_arg6 : FVec F S256x256 .f32) (main_arg7 : FVec F S256 .f32) (main_arg8 : FVec F S16x256 .f32) (main_arg9 : FVec F S256 .f32) (main_arg10 : FVec F S256x256 .f32) (main_arg11 : FVec F S256 .f32) (main_arg12 : FVec F S256x256 .f32) (main_arg13 : FVec F S256 .f32) (main_arg14 : IVec S2x400000 32) (main_arg15 : IVec S200000 32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S400000x16 .f32 := Host.absf main_arg1
  let main_cst_0 : FVec F S_ .f32 := constant S_ .f32 0x7F800000#32
  let main_v5 : FVec F S400000x16 .f32 := broadcastInDim S400000x16 ![] bcast_S_S400000x16 main_cst_0
  let main_v6 : IVec S400000x16 1 := cmpf .olt main_v4 main_v5
  let main_c_1 : IVec S_ 1 := constantI S_ 1 1#1
  let main_v7 : IVec S_ 1 := (fun x v => Host.reduce IntOp.andi x v reducesTo_S400000x16_S_d0_1 h_S_) main_v6 main_c_1
  let main_v8 : IVec S_ 1 := andi main_v3 main_v7
  let main_v9 : FVec F S16x128 .f32 := Host.absf main_arg2
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_v13 main_v16
-- ==== Kernel.lean ====
abbrev S200000x128 : Shape := ⟨2, ![200000, 128]⟩
abbrev S400000x16 : Shape := ⟨2, ![400000, 16]⟩
abbrev S16x128 : Shape := ⟨2, ![16, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S16x256 : Shape := ⟨2, ![16, 256]⟩
abbrev S2x400000 : Shape := ⟨2, ![2, 400000]⟩
abbrev S200000 : Shape := ⟨1, ![200000]⟩
abbrev S1x400000 : Shape := ⟨2, ![1, 400000]⟩
abbrev S400000 : Shape := ⟨1, ![400000]⟩
abbrev S1x128 : Shape := ⟨2, ![1, 128]⟩
abbrev S1x256 : Shape := ⟨2, ![1, 256]⟩
abbrev S_ : Shape := ⟨0, ![]⟩
abbrev S400000x1 : Shape := ⟨2, ![400000, 1]⟩
abbrev S400000x128 : Shape := ⟨2, ![400000, 128]⟩
abbrev S8000x128 : Shape := ⟨2, ![8000, 128]⟩
abbrev S8000x16 : Shape := ⟨2, ![8000, 16]⟩
abbrev S200000x256 : Shape := ⟨2, ![200000, 256]⟩
abbrev S2000x128 : Shape := ⟨2, ![2000, 128]⟩
abbrev S2000x256 : Shape := ⟨2, ![2000, 256]⟩
abbrev S400000x256 : Shape := ⟨2, ![400000, 256]⟩
abbrev S4000x256 : Shape := ⟨2, ![4000, 256]⟩
abbrev S4000x16 : Shape := ⟨2, ![4000, 16]⟩
abbrev S4096x256 : Shape := ⟨2, ![4096, 256]⟩
abbrev S200000x1 : Shape := ⟨2, ![200000, 1]⟩
abbrev S4096 : Shape := ⟨1, ![4096]⟩
abbrev S4096x1 : Shape := ⟨2, ![4096, 1]⟩

abbrev nBuf : Space → Nat
  | .hbm => 80
  | .vmem => 36
  | .smem => 0
  | _ => 0

abbrev bufTy : (tb : Table) → Fin (tcTables nBuf tb) → BufTy
  | .hbm, ⟨0, _⟩ => ⟨S200000x128, .f32⟩
  | .hbm, ⟨1, _⟩ => ⟨S400000x16, .f32⟩
  | .hbm, ⟨2, _⟩ => ⟨S16x128, .f32⟩
  | .hbm, ⟨3, _⟩ => ⟨S128, .f32⟩
  | .hbm, ⟨4, _⟩ => ⟨S128x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S16x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S2x400000, .i32⟩
  | .hbm, ⟨15, _⟩ => ⟨S200000, .i32⟩
  | .hbm, ⟨16, _⟩ => ⟨S1x400000, .i32⟩
  | .hbm, ⟨17, _⟩ => ⟨S400000, .i32⟩
  | .hbm, ⟨18, _⟩ => ⟨S1x400000, .i32⟩
  | .hbm, ⟨19, _⟩ => ⟨S400000, .i32⟩
  | .hbm, ⟨20, _⟩ => ⟨S1x128, .f32⟩
  | .hbm, ⟨21, _⟩ => ⟨S1x256, .f32⟩
  | .hbm, ⟨22, _⟩ => ⟨S1x256, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S16x128, .bf16⟩
  | .hbm, ⟨27, _⟩ => ⟨S16x256, .bf16⟩
  | .hbm, ⟨28, _⟩ => ⟨S128x256, .bf16⟩
  | .hbm, ⟨29, _⟩ => ⟨S256x256, .bf16⟩
  | .hbm, ⟨30, _⟩ => ⟨S256x256, .bf16⟩
  | .hbm, ⟨31, _⟩ => ⟨S256x256, .bf16⟩
  | .hbm, ⟨32, _⟩ => ⟨S_, .i32⟩
  | .hbm, ⟨33, _⟩ => ⟨S400000, .i32⟩
  | .hbm, ⟨34, _⟩ => ⟨S400000, .i1⟩
  | .hbm, ⟨35, _⟩ => ⟨S_, .i32⟩
  | .hbm, ⟨36, _⟩ => ⟨S400000, .i32⟩
  | .hbm, ⟨37, _⟩ => ⟨S400000, .i32⟩
  | .hbm, ⟨38, _⟩ => ⟨S400000, .i32⟩
  | .hbm, ⟨39, _⟩ => ⟨S400000x1, .i32⟩
  | .hbm, ⟨40, _⟩ => ⟨S400000x128, .f32⟩
  | .hbm, ⟨41, _⟩ => ⟨S400000x128, .bf16⟩
  | .hbm, ⟨42, _⟩ => ⟨S400000x128, .f32⟩
  | .hbm, ⟨43, _⟩ => ⟨S_, .f32⟩
  | .hbm, ⟨44, _⟩ => ⟨S200000x128, .f32⟩
  | .hbm, ⟨45, _⟩ => ⟨S400000x1, .i32⟩
  | .hbm, ⟨46, _⟩ => ⟨S200000x128, .f32⟩
  | .hbm, ⟨47, _⟩ => ⟨S200000x256, .f32⟩
  | .hbm, ⟨48, _⟩ => ⟨S_, .i32⟩
  | .hbm, ⟨49, _⟩ => ⟨S400000, .i32⟩
  | .hbm, ⟨50, _⟩ => ⟨S400000, .i1⟩
  | .hbm, ⟨51, _⟩ => ⟨S_, .i32⟩
  | .hbm, ⟨52, _⟩ => ⟨S400000, .i32⟩
  | .hbm, ⟨53, _⟩ => ⟨S400000, .i32⟩
  | .hbm, ⟨54, _⟩ => ⟨S400000, .i32⟩
  | .hbm, ⟨55, _⟩ => ⟨S400000x1, .i32⟩
  | .hbm, ⟨56, _⟩ => ⟨S400000x256, .f32⟩
  | .hbm, ⟨57, _⟩ => ⟨S400000x256, .bf16⟩
  | .hbm, ⟨58, _⟩ => ⟨S400000x256, .f32⟩
  | .hbm, ⟨59, _⟩ => ⟨S_, .f32⟩
  | .hbm, ⟨60, _⟩ => ⟨S200000x256, .f32⟩
  | .hbm, ⟨61, _⟩ => ⟨S400000x1, .i32⟩
  | .hbm, ⟨62, _⟩ => ⟨S200000x256, .f32⟩
  | .hbm, ⟨63, _⟩ => ⟨S200000x256, .f32⟩
  | .hbm, ⟨64, _⟩ => ⟨S_, .f32⟩
  | .hbm, ⟨65, _⟩ => ⟨S4096x256, .f32⟩
  | .hbm, ⟨66, _⟩ => ⟨S200000x1, .i32⟩
  | .hbm, ⟨67, _⟩ => ⟨S4096x256, .f32⟩
  | .hbm, ⟨68, _⟩ => ⟨S_, .f32⟩
  | .hbm, ⟨69, _⟩ => ⟨S200000, .f32⟩
  | .hbm, ⟨70, _⟩ => ⟨S_, .f32⟩
  | .hbm, ⟨71, _⟩ => ⟨S4096, .f32⟩
  | .hbm, ⟨72, _⟩ => ⟨S200000x1, .i32⟩
  | .hbm, ⟨73, _⟩ => ⟨S4096, .f32⟩
  | .hbm, ⟨74, _⟩ => ⟨S_, .f32⟩
  | .hbm, ⟨75, _⟩ => ⟨S4096, .f32⟩
  | .hbm, ⟨76, _⟩ => ⟨S4096, .f32⟩
  | .hbm, ⟨77, _⟩ => ⟨S4096x1, .f32⟩
  | .hbm, ⟨78, _⟩ => ⟨S4096x256, .f32⟩
  | .hbm, ⟨79, _⟩ => ⟨S4096x256, .f32⟩
  | .local _ .vmem, ⟨0, _⟩ => ⟨S8000x128, .f32⟩
  | .local _ .vmem, ⟨1, _⟩ => ⟨S8000x128, .f32⟩
  | .local _ .vmem, ⟨2, _⟩ => ⟨S8000x16, .f32⟩
  | .local _ .vmem, ⟨3, _⟩ => ⟨S8000x16, .f32⟩
  | .local _ .vmem, ⟨4, _⟩ => ⟨S16x128, .bf16⟩
  | .local _ .vmem, ⟨5, _⟩ => ⟨S1x128, .f32⟩
  | .local _ .vmem, ⟨6, _⟩ => ⟨S8000x128, .bf16⟩
  | .local _ .vmem, ⟨7, _⟩ => ⟨S8000x128, .bf16⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x256, .bf16⟩
  | .local _ .vmem, ⟨13, _⟩ => ⟨S1x256, .f32⟩
  | .local _ .vmem, ⟨14, _⟩ => ⟨S256x256, .bf16⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | .local _ .vmem, ⟨18, _⟩ => ⟨S4000x256, .f32⟩
  | .local _ .vmem, ⟨19, _⟩ => ⟨S4000x256, .f32⟩
  | .local _ .vmem, ⟨20, _⟩ => ⟨S4000x16, .f32⟩
  | .local _ .vmem, ⟨21, _⟩ => ⟨S4000x16, .f32⟩
  | .local _ .vmem, ⟨22, _⟩ => ⟨S16x256, .bf16⟩
  | .local _ .vmem, ⟨23, _⟩ => ⟨S1x256, .f32⟩
  | .local _ .vmem, ⟨24, _⟩ => ⟨S4000x256, .bf16⟩
  | .local _ .vmem, ⟨25, _⟩ => ⟨S4000x256, .bf16⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S256x256, .bf16⟩
  | .local _ .vmem, ⟨31, _⟩ => ⟨S1x256, .f32⟩
  | .local _ .vmem, ⟨32, _⟩ => ⟨S256x256, .bf16⟩
  | .local _ .vmem, ⟨33, _⟩ => ⟨S1x256, .f32⟩
  | .local _ .vmem, ⟨34, _⟩ => ⟨S2000x256, .f32⟩
  | .local _ .vmem, ⟨35, _⟩ => ⟨S2000x256, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_0 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_1 : Ref sig .tc := ⟨.hbm, 48, rfl⟩
abbrev main_v29 : Ref sig .tc := ⟨.hbm, 49, rfl⟩
abbrev main_v30 : Ref sig .tc := ⟨.hbm, 50, rfl⟩
abbrev main_c_2 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_3 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_4 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_5 : Ref sig .tc := ⟨.hbm, 68, rfl⟩
abbrev main_v45 : Ref sig .tc := ⟨.hbm, 69, rfl⟩
abbrev main_cst_6 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_7 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x256 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  shapeCasts_S128_S1x128 : S128.ShapeCasts S1x128
  shapeCasts_S256_S1x256 : S256.ShapeCasts S1x256
  bitsLt_bf16_f32 : FTy.bits .bf16 < FTy.bits .f32
  bcast_S_S400000 : S_.BroadcastsInDim S400000 (![] : Fin 0 → Fin S400000.rank)
  bcast_S400000_S400000x1_0 : S400000.BroadcastsInDim S400000x1 (![0] : Fin 1 → Fin S400000x1.rank)
  inb_S8000x16_S8000x16_0_0 : ∀ a, (![0, 0] : Fin 2 → Nat) a + S8000x16.size a ≤ S8000x16.size a
  h_S8000x16 : 0 < S8000x16.numel
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  packedbf16_S8000x128_S8000x128_0_0 : (Rect.unit (s := S8000x128) ![0, 0] S8000x128.size inb_S8000x128_S8000x128_0_0).PackedRows (EltTy.packing .bf16)
  bcast_S_S200000x128 : S_.BroadcastsInDim S200000x128 (![] : Fin 0 → Fin S200000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S2000x256_S2000x256_0_0 : ∀ a, (![0, 0] : Fin 2 → Nat) a + S2000x256.size a ≤ S2000x256.size a
  h_S2000x256 : 0 < S2000x256.numel
  inb_S4000x16_S4000x16_0_0 : ∀ a, (![0, 0] : Fin 2 → Nat) a + S4000x16.size a ≤ S4000x16.size a
  h_S4000x16 : 0 < S4000x16.numel
  inb_S16x256_S16x256_0_0 : ∀ a, (![0, 0] : Fin 2 → Nat) a + S16x256.size a ≤ S16x256.size a
  h_S16x256 : 0 < S16x256.numel
  shapeCasts_S16x256_S16x256 : S16x256.ShapeCasts S16x256
  broadcasts_S1x256_S4000x256 : S1x256.Broadcasts S4000x256
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  packedbf16_S4000x256_S4000x256_0_0 : (Rect.unit (s := S4000x256) ![0, 0] S4000x256.size inb_S4000x256_S4000x256_0_0).PackedRows (EltTy.packing .bf16)
  bcast_S_S200000x256 : S_.BroadcastsInDim S200000x256 (![] : Fin 0 → Fin S200000x256.rank)
  shapeCasts_S2000x256_S2000x256 : S2000x256.ShapeCasts S2000x256
  bcast_S_S4096x256 : S_.BroadcastsInDim S4096x256 (![] : Fin 0 → Fin S4096x256.rank)
  bcast_S200000_S200000x1_0 : S200000.BroadcastsInDim S200000x1 (![0] : Fin 1 → Fin S200000x1.rank)
  bcast_S_S200000 : S_.BroadcastsInDim S200000 (![] : Fin 0 → Fin S200000.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  gather_S200000x128_S400000x1_S400000x128_1_0_n_n_0_1_1128_wf : GatherDims.WF S200000x128 S400000x1 S400000x128 [1] [0] [] [0] [] 1 ![1, 128]
  dot_S8000x16_S16x128_S8000x128_1_0_0_1_n_n_wf : DotDims.WF S8000x16 S16x128 S8000x128 [1] [0] [0] [1] [] []
  scatter_S200000x128_S400000x1_S400000x128_1_0_0_1_wf : ScatterDims.WF S200000x128 S400000x1 S400000x128 [1] [0] [0] 1
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  gather_S200000x256_S400000x1_S400000x256_1_0_n_n_0_1_1256_wf : GatherDims.WF S200000x256 S400000x1 S400000x256 [1] [0] [] [0] [] 1 ![1, 256]
  dot_S4000x16_S16x256_S4000x256_1_0_0_1_n_n_wf : DotDims.WF S4000x16 S16x256 S4000x256 [1] [0] [0] [1] [] []
  scatter_S200000x256_S400000x1_S400000x256_1_0_0_1_wf : ScatterDims.WF S200000x256 S400000x1 S400000x256 [1] [0] [0] 1
  scatter_S4096x256_S200000x1_S200000x256_1_0_0_1_wf : ScatterDims.WF S4096x256 S200000x1 S200000x256 [1] [0] [0] 1
  scatter_S4096_S200000x1_S200000_n_0_0_1_wf : ScatterDims.WF S4096 S200000x1 S200000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S400000x128.size a
  hwx0_0 : ∀ i : grid0.Coords, EltTy.bits .f32 = 32 ∨ (Rect.block (s := S400000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x16.size a ≤ S400000x16.size a
  hwx0_1 : ∀ i : grid0.Coords, EltTy.bits .f32 = 32 ∨ (Rect.block (s := S400000x16) S8000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S16x128.size a
  hwx0_2 : ∀ i : grid0.Coords, EltTy.bits .bf16 = 32 ∨ (Rect.block (s := S16x128) S16x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x128.size a ≤ S400000x128.size a
  hwx0_4 : ∀ i : grid0.Coords, EltTy.bits .bf16 = 32 ∨ (Rect.block (s := S400000x128) S8000x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S200000x128.size a
  hwx1_0 : ∀ i : grid1.Coords, EltTy.bits .f32 = 32 ∨ (Rect.block (s := S200000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S200000x128.size a
  hwx1_1 : ∀ i : grid1.Coords, EltTy.bits .f32 = 32 ∨ (Rect.block (s := S200000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .bf16 = 32 ∨ (Rect.block (s := S128x256) S128x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .bf16 = 32 ∨ (Rect.block (s := S256x256) S256x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S200000x256.size a
  hwx1_6 : ∀ i : grid1.Coords, EltTy.bits .f32 = 32 ∨ (Rect.block (s := S200000x256) S2000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x256.size a ≤ S400000x256.size a
  hwx2_0 : ∀ i : grid2.Coords, EltTy.bits .f32 = 32 ∨ (Rect.block (s := S400000x256) S4000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x16.size a ≤ S400000x16.size a
  hwx2_1 : ∀ i : grid2.Coords, EltTy.bits .f32 = 32 ∨ (Rect.block (s := S400000x16) S4000x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x256.size a ≤ S16x256.size a
  hwx2_2 : ∀ i : grid2.Coords, EltTy.bits .bf16 = 32 ∨ (Rect.block (s := S16x256) S16x256.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x256.size a ≤ S400000x256.size a
  hwx2_4 : ∀ i : grid2.Coords, EltTy.bits .bf16 = 32 ∨ (Rect.block (s := S400000x256) S4000x256.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S200000x256.size a
  hwx3_0 : ∀ i : grid3.Coords, EltTy.bits .f32 = 32 ∨ (Rect.block (s := S200000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S200000x256.size a
  hwx3_1 : ∀ i : grid3.Coords, EltTy.bits .f32 = 32 ∨ (Rect.block (s := S200000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .bf16 = 32 ∨ (Rect.block (s := S256x256) S256x256.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .bf16 = 32 ∨ (Rect.block (s := S256x256) S256x256.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x256.size a ≤ S200000x256.size a
  hwx3_6 : ∀ i : grid3.Coords, EltTy.bits .f32 = 32 ∨ (Rect.block (s := S200000x256) S2000x256.size (cc3_transform_6 i) (hinb3_6 i)).WholeWords (EltTy.packing .f32)

variable [Facts₀]

def gather_S200000x128_S400000x1_S400000x128_1_0_n_n_0_1_1128 : GatherDims S200000x128 S400000x1 S400000x128 where
  offsetDims := [1]
  collapsedSliceDims := [0]
  operandBatchingDims := []
  startIndicesBatchingDims := []
  startIndexMap := [0]
  indexVectorDim := 1
  sliceSizes := ![1, 128]
  wf := gather_S200000x128_S400000x1_S400000x128_1_0_n_n_0_1_1128_wf
def dot_S8000x16_S16x128_S8000x128_1_0_0_1_n_n : DotDims S8000x16 S16x128 S8000x128 where
  lhsContracting := [1]
  rhsContracting := [0]
  lhsNonContracting := [0]
  rhsNonContracting := [1]
  lhsBatch := []
  rhsBatch := []
  wf := dot_S8000x16_S16x128_S8000x128_1_0_0_1_n_n_wf
def scatter_S200000x128_S400000x1_S400000x128_1_0_0_1 : ScatterDims S200000x128 S400000x1 S400000x128 where
  updateWindowDims := [1]
  insertedWindowDims := [0]
  scatterDimsToOperandDims := [0]
  indexVectorDim := 1
  wf := scatter_S200000x128_S400000x1_S400000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S200000x256_S400000x1_S400000x256_1_0_n_n_0_1_1256 : GatherDims S200000x256 S400000x1 S400000x256 where
  offsetDims := [1]
  collapsedSliceDims := [0]
  operandBatchingDims := []
  startIndicesBatchingDims := []
  startIndexMap := [0]
  indexVectorDim := 1
  sliceSizes := ![1, 256]
  wf := gather_S200000x256_S400000x1_S400000x256_1_0_n_n_0_1_1256_wf
def dot_S4000x16_S16x256_S4000x256_1_0_0_1_n_n : DotDims S4000x16 S16x256 S4000x256 where
  lhsContracting := [1]
  rhsContracting := [0]
  lhsNonContracting := [0]
  rhsNonContracting := [1]
  lhsBatch := []
  rhsBatch := []
  wf := dot_S4000x16_S16x256_S4000x256_1_0_0_1_n_n_wf
def scatter_S200000x256_S400000x1_S400000x256_1_0_0_1 : ScatterDims S200000x256 S400000x1 S400000x256 where
  updateWindowDims := [1]
  insertedWindowDims := [0]
  scatterDimsToOperandDims := [0]
  indexVectorDim := 1
  wf := scatter_S200000x256_S400000x1_S400000x256_1_0_0_1_wf
def scatter_S4096x256_S200000x1_S200000x256_1_0_0_1 : ScatterDims S4096x256 S200000x1 S200000x256 where
  updateWindowDims := [1]
  insertedWindowDims := [0]
  scatterDimsToOperandDims := [0]
  indexVectorDim := 1
  wf := scatter_S4096x256_S200000x1_S200000x256_1_0_0_1_wf
def scatter_S4096_S200000x1_S200000_n_0_0_1 : ScatterDims S4096 S200000x1 S200000 where
  updateWindowDims := []
  insertedWindowDims := [0]
  scatterDimsToOperandDims := [0]
  indexVectorDim := 1
  wf := scatter_S4096_S200000x1_S200000_n_0_0_1_wf

abbrev win0_0 : Pipeline.Window sig grid0 :=
  Pipeline.Window.ofSpec (Memref.whole main_v22) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S16x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S8000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v35) S4000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S4000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S16x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v7) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v36) S4000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v28) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v8) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v15) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v9) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v41) S2000x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S200000x128 : Shape := ⟨2, ![200000, 128]⟩
abbrev S400000x16 : Shape := ⟨2, ![400000, 16]⟩
abbrev S16x128 : Shape := ⟨2, ![16, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S16x256 : Shape := ⟨2, ![16, 256]⟩
abbrev S2x400000 : Shape := ⟨2, ![2, 400000]⟩
abbrev S200000 : Shape := ⟨1, ![200000]⟩
abbrev S1x400000 : Shape := ⟨2, ![1, 400000]⟩
abbrev S400000 : Shape := ⟨1, ![400000]⟩
abbrev S400000x128 : Shape := ⟨2, ![400000, 128]⟩
abbrev S1x128 : Shape := ⟨2, ![1, 128]⟩
abbrev S_ : Shape := ⟨0, ![]⟩
abbrev S400000x1 : Shape := ⟨2, ![400000, 1]⟩
abbrev S200000x256 : Shape := ⟨2, ![200000, 256]⟩
abbrev S1x256 : Shape := ⟨2, ![1, 256]⟩
abbrev S400000x256 : Shape := ⟨2, ![400000, 256]⟩
abbrev S4096x256 : Shape := ⟨2, ![4096, 256]⟩
abbrev S200000x1 : Shape := ⟨2, ![200000, 1]⟩
abbrev S4096 : Shape := ⟨1, ![4096]⟩
abbrev S4096x1 : Shape := ⟨2, ![4096, 1]⟩

abbrev nBuf : Space → Nat
  | .hbm => 108
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S400000x16, .f32⟩
  | .hbm, ⟨2, _⟩ => ⟨S16x128, .f32⟩
  | .hbm, ⟨3, _⟩ => ⟨S128, .f32⟩
  | .hbm, ⟨4, _⟩ => ⟨S128x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S16x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S2x400000, .i32⟩
  | .hbm, ⟨15, _⟩ => ⟨S200000, .i32⟩
  | .hbm, ⟨16, _⟩ => ⟨S1x400000, .i32⟩
  | .hbm, ⟨17, _⟩ => ⟨S400000, .i32⟩
  | .hbm, ⟨18, _⟩ => ⟨S1x400000, .i32⟩
  | .hbm, ⟨19, _⟩ => ⟨S400000, .i32⟩
  | .hbm, ⟨20, _⟩ => ⟨S400000x128, .f32⟩
  | .hbm, ⟨21, _⟩ => ⟨S1x128, .f32⟩
  | .hbm, ⟨22, _⟩ => ⟨S400000x128, .f32⟩
  | .hbm, ⟨23, _⟩ => ⟨S400000x128, .f32⟩
  | .hbm, ⟨24, _⟩ => ⟨S_, .i32⟩
  | .hbm, ⟨25, _⟩ => ⟨S400000, .i32⟩
  | .hbm, ⟨26, _⟩ => ⟨S400000, .i1⟩
  | .hbm, ⟨27, _⟩ => ⟨S_, .i32⟩
  | .hbm, ⟨28, _⟩ => ⟨S400000, .i32⟩
  | .hbm, ⟨29, _⟩ => ⟨S400000, .i32⟩
  | .hbm, ⟨30, _⟩ => ⟨S400000, .i32⟩
  | .hbm, ⟨31, _⟩ => ⟨S400000x1, .i32⟩
  | .hbm, ⟨32, _⟩ => ⟨S400000x128, .f32⟩
  | .hbm, ⟨33, _⟩ => ⟨S400000x128, .f32⟩
  | .hbm, ⟨34, _⟩ => ⟨S_, .f32⟩
  | .hbm, ⟨35, _⟩ => ⟨S400000x128, .f32⟩
  | .hbm, ⟨36, _⟩ => ⟨S400000x128, .f32⟩
  | .hbm, ⟨37, _⟩ => ⟨S_, .f32⟩
  | .hbm, ⟨38, _⟩ => ⟨S200000x128, .f32⟩
  | .hbm, ⟨39, _⟩ => ⟨S400000x1, .i32⟩
  | .hbm, ⟨40, _⟩ => ⟨S200000x128, .f32⟩
  | .hbm, ⟨41, _⟩ => ⟨S200000x128, .f32⟩
  | .hbm, ⟨42, _⟩ => ⟨S200000x256, .f32⟩
  | .hbm, ⟨43, _⟩ => ⟨S1x256, .f32⟩
  | .hbm, ⟨44, _⟩ => ⟨S200000x256, .f32⟩
  | .hbm, ⟨45, _⟩ => ⟨S200000x256, .f32⟩
  | .hbm, ⟨46, _⟩ => ⟨S_, .f32⟩
  | .hbm, ⟨47, _⟩ => ⟨S200000x256, .f32⟩
  | .hbm, ⟨48, _⟩ => ⟨S200000x256, .f32⟩
  | .hbm, ⟨49, _⟩ => ⟨S200000x256, .f32⟩
  | .hbm, ⟨50, _⟩ => ⟨S1x256, .f32⟩
  | .hbm, ⟨51, _⟩ => ⟨S200000x256, .f32⟩
  | .hbm, ⟨52, _⟩ => ⟨S200000x256, .f32⟩
  | .hbm, ⟨53, _⟩ => ⟨S_, .f32⟩
  | .hbm, ⟨54, _⟩ => ⟨S200000x256, .f32⟩
  | .hbm, ⟨55, _⟩ => ⟨S200000x256, .f32⟩
  | .hbm, ⟨56, _⟩ => ⟨S400000x256, .f32⟩
  | .hbm, ⟨57, _⟩ => ⟨S1x256, .f32⟩
  | .hbm, ⟨58, _⟩ => ⟨S400000x256, .f32⟩
  | .hbm, ⟨59, _⟩ => ⟨S400000x256, .f32⟩
  | .hbm, ⟨60, _⟩ => ⟨S_, .i32⟩
  | .hbm, ⟨61, _⟩ => ⟨S400000, .i32⟩
  | .hbm, ⟨62, _⟩ => ⟨S400000, .i1⟩
  | .hbm, ⟨63, _⟩ => ⟨S_, .i32⟩
  | .hbm, ⟨64, _⟩ => ⟨S400000, .i32⟩
  | .hbm, ⟨65, _⟩ => ⟨S400000, .i32⟩
  | .hbm, ⟨66, _⟩ => ⟨S400000, .i32⟩
  | .hbm, ⟨67, _⟩ => ⟨S400000x1, .i32⟩
  | .hbm, ⟨68, _⟩ => ⟨S400000x256, .f32⟩
  | .hbm, ⟨69, _⟩ => ⟨S400000x256, .f32⟩
  | .hbm, ⟨70, _⟩ => ⟨S_, .f32⟩
  | .hbm, ⟨71, _⟩ => ⟨S400000x256, .f32⟩
  | .hbm, ⟨72, _⟩ => ⟨S400000x256, .f32⟩
  | .hbm, ⟨73, _⟩ => ⟨S_, .f32⟩
  | .hbm, ⟨74, _⟩ => ⟨S200000x256, .f32⟩
  | .hbm, ⟨75, _⟩ => ⟨S400000x1, .i32⟩
  | .hbm, ⟨76, _⟩ => ⟨S200000x256, .f32⟩
  | .hbm, ⟨77, _⟩ => ⟨S200000x256, .f32⟩
  | .hbm, ⟨78, _⟩ => ⟨S200000x256, .f32⟩
  | .hbm, ⟨79, _⟩ => ⟨S1x256, .f32⟩
  | .hbm, ⟨80, _⟩ => ⟨S200000x256, .f32⟩
  | .hbm, ⟨81, _⟩ => ⟨S200000x256, .f32⟩
  | .hbm, ⟨82, _⟩ => ⟨S_, .f32⟩
  | .hbm, ⟨83, _⟩ => ⟨S200000x256, .f32⟩
  | .hbm, ⟨84, _⟩ => ⟨S200000x256, .f32⟩
  | .hbm, ⟨85, _⟩ => ⟨S200000x256, .f32⟩
  | .hbm, ⟨86, _⟩ => ⟨S1x256, .f32⟩
  | .hbm, ⟨87, _⟩ => ⟨S200000x256, .f32⟩
  | .hbm, ⟨88, _⟩ => ⟨S200000x256, .f32⟩
  | .hbm, ⟨89, _⟩ => ⟨S_, .f32⟩
  | .hbm, ⟨90, _⟩ => ⟨S200000x256, .f32⟩
  | .hbm, ⟨91, _⟩ => ⟨S200000x256, .f32⟩
  | .hbm, ⟨92, _⟩ => ⟨S_, .f32⟩
  | .hbm, ⟨93, _⟩ => ⟨S4096x256, .f32⟩
  | .hbm, ⟨94, _⟩ => ⟨S200000x1, .i32⟩
  | .hbm, ⟨95, _⟩ => ⟨S4096x256, .f32⟩
  | .hbm, ⟨96, _⟩ => ⟨S_, .f32⟩
  | .hbm, ⟨97, _⟩ => ⟨S200000, .f32⟩
  | .hbm, ⟨98, _⟩ => ⟨S_, .f32⟩
  | .hbm, ⟨99, _⟩ => ⟨S4096, .f32⟩
  | .hbm, ⟨100, _⟩ => ⟨S200000x1, .i32⟩
  | .hbm, ⟨101, _⟩ => ⟨S4096, .f32⟩
  | .hbm, ⟨102, _⟩ => ⟨S_, .f32⟩
  | .hbm, ⟨103, _⟩ => ⟨S4096, .f32⟩
  | .hbm, ⟨104, _⟩ => ⟨S4096, .f32⟩
  | .hbm, ⟨105, _⟩ => ⟨S4096x1, .f32⟩
  | .hbm, ⟨106, _⟩ => ⟨S4096x256, .f32⟩
  | .hbm, ⟨107, _⟩ => ⟨S4096x256, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_call0_cst : Ref sig .tc := ⟨.hbm, 34, rfl⟩
abbrev main_call0_v0 : Ref sig .tc := ⟨.hbm, 35, rfl⟩
abbrev main_v16 : Ref sig .tc := ⟨.hbm, 36, rfl⟩
abbrev main_cst : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_call1_cst : Ref sig .tc := ⟨.hbm, 46, rfl⟩
abbrev main_call1_v0 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_call2_cst : Ref sig .tc := ⟨.hbm, 53, rfl⟩
abbrev main_call2_v0 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c_1 : Ref sig .tc := ⟨.hbm, 60, rfl⟩
abbrev main_v35 : Ref sig .tc := ⟨.hbm, 61, rfl⟩
abbrev main_v36 : Ref sig .tc := ⟨.hbm, 62, rfl⟩
abbrev main_c_2 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_call3_cst : Ref sig .tc := ⟨.hbm, 70, rfl⟩
abbrev main_call3_v0 : Ref sig .tc := ⟨.hbm, 71, rfl⟩
abbrev main_v43 : Ref sig .tc := ⟨.hbm, 72, rfl⟩
abbrev main_cst_3 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_call4_cst : Ref sig .tc := ⟨.hbm, 82, rfl⟩
abbrev main_call4_v0 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_call5_cst : Ref sig .tc := ⟨.hbm, 89, rfl⟩
abbrev main_call5_v0 : Ref sig .tc := ⟨.hbm, 90, rfl⟩
abbrev main_v57 : Ref sig .tc := ⟨.hbm, 91, rfl⟩
abbrev main_cst_4 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_5 : Ref sig .tc := ⟨.hbm, 96, rfl⟩
abbrev main_v61 : Ref sig .tc := ⟨.hbm, 97, rfl⟩
abbrev main_cst_6 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_7 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S400000x128 : S_.BroadcastsInDim S400000x128 (![] : Fin 0 → Fin S400000x128.rank)
  bcast_S_S200000x128 : S_.BroadcastsInDim S200000x128 (![] : Fin 0 → Fin S200000x128.rank)
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  bcast_S_S200000x256 : S_.BroadcastsInDim S200000x256 (![] : Fin 0 → Fin S200000x256.rank)
  bcast_S1x256_S400000x256_0_1 : S1x256.BroadcastsInDim S400000x256 (![0, 1] : Fin 2 → Fin S400000x256.rank)
  bcast_S_S400000x256 : S_.BroadcastsInDim S400000x256 (![] : Fin 0 → Fin S400000x256.rank)
  bcast_S_S4096x256 : S_.BroadcastsInDim S4096x256 (![] : Fin 0 → Fin S4096x256.rank)
  bcast_S200000_S200000x1_0 : S200000.BroadcastsInDim S200000x1 (![0] : Fin 1 → Fin S200000x1.rank)
  bcast_S_S200000 : S_.BroadcastsInDim S200000 (![] : Fin 0 → Fin S200000.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  dot_S400000x16_S16x128_S400000x128_1_0_0_1_n_n_wf : DotDims.WF S400000x16 S16x128 S400000x128 [1] [0] [0] [1] [] []
  gather_S200000x128_S400000x1_S400000x128_1_0_n_n_0_1_1128_wf : GatherDims.WF S200000x128 S400000x1 S400000x128 [1] [0] [] [0] [] 1 ![1, 128]
  scatter_S200000x128_S400000x1_S400000x128_1_0_0_1_wf : ScatterDims.WF S200000x128 S400000x1 S400000x128 [1] [0] [0] 1
  dot_S200000x128_S128x256_S200000x256_1_0_0_1_n_n_wf : DotDims.WF S200000x128 S128x256 S200000x256 [1] [0] [0] [1] [] []
  dot_S200000x256_S256x256_S200000x256_1_0_0_1_n_n_wf : DotDims.WF S200000x256 S256x256 S200000x256 [1] [0] [0] [1] [] []
  dot_S400000x16_S16x256_S400000x256_1_0_0_1_n_n_wf : DotDims.WF S400000x16 S16x256 S400000x256 [1] [0] [0] [1] [] []
  gather_S200000x256_S400000x1_S400000x256_1_0_n_n_0_1_1256_wf : GatherDims.WF S200000x256 S400000x1 S400000x256 [1] [0] [] [0] [] 1 ![1, 256]
  scatter_S200000x256_S400000x1_S400000x256_1_0_0_1_wf : ScatterDims.WF S200000x256 S400000x1 S400000x256 [1] [0] [0] 1
  scatter_S4096x256_S200000x1_S200000x256_1_0_0_1_wf : ScatterDims.WF S4096x256 S200000x1 S200000x256 [1] [0] [0] 1
  scatter_S4096_S200000x1_S200000_n_0_0_1_wf : ScatterDims.WF S4096 S200000x1 S200000 [] [0] [0] 1

variable [Facts₀]

def dot_S400000x16_S16x128_S400000x128_1_0_0_1_n_n : DotDims S400000x16 S16x128 S400000x128 where
  lhsContracting := [1]
  rhsContracting := [0]
  lhsNonContracting := [0]
  rhsNonContracting := [1]
  lhsBatch := []
  rhsBatch := []
  wf := dot_S400000x16_S16x128_S400000x128_1_0_0_1_n_n_wf
def gather_S200000x128_S400000x1_S400000x128_1_0_n_n_0_1_1128 : GatherDims S200000x128 S400000x1 S400000x128 where
  offsetDims := [1]
  collapsedSliceDims := [0]
  operandBatchingDims := []
  startIndicesBatchingDims := []
  startIndexMap := [0]
  indexVectorDim := 1
  sliceSizes := ![1, 128]
  wf := gather_S200000x128_S400000x1_S400000x128_1_0_n_n_0_1_1128_wf
def scatter_S200000x128_S400000x1_S400000x128_1_0_0_1 : ScatterDims S200000x128 S400000x1 S400000x128 where
  updateWindowDims := [1]
  insertedWindowDims := [0]
  scatterDimsToOperandDims := [0]
  indexVectorDim := 1
  wf := scatter_S200000x128_S400000x1_S400000x128_1_0_0_1_wf
def dot_S200000x128_S128x256_S200000x256_1_0_0_1_n_n : DotDims S200000x128 S128x256 S200000x256 where
  lhsContracting := [1]
  rhsContracting := [0]
  lhsNonContracting := [0]
  rhsNonContracting := [1]
  lhsBatch := []
  rhsBatch := []
  wf := dot_S200000x128_S128x256_S200000x256_1_0_0_1_n_n_wf
def dot_S200000x256_S256x256_S200000x256_1_0_0_1_n_n : DotDims S200000x256 S256x256 S200000x256 where
  lhsContracting := [1]
  rhsContracting := [0]
  lhsNonContracting := [0]
  rhsNonContracting := [1]
  lhsBatch := []
  rhsBatch := []
  wf := dot_S200000x256_S256x256_S200000x256_1_0_0_1_n_n_wf
def dot_S400000x16_S16x256_S400000x256_1_0_0_1_n_n : DotDims S400000x16 S16x256 S400000x256 where
  lhsContracting := [1]
  rhsContracting := [0]
  lhsNonContracting := [0]
  rhsNonContracting := [1]
  lhsBatch := []
  rhsBatch := []
  wf := dot_S400000x16_S16x256_S400000x256_1_0_0_1_n_n_wf
def gather_S200000x256_S400000x1_S400000x256_1_0_n_n_0_1_1256 : GatherDims S200000x256 S400000x1 S400000x256 where
  offsetDims := [1]
  collapsedSliceDims := [0]
  operandBatchingDims := []
  startIndicesBatchingDims := []
  startIndexMap := [0]
  indexVectorDim := 1
  sliceSizes := ![1, 256]
  wf := gather_S200000x256_S400000x1_S400000x256_1_0_n_n_0_1_1256_wf
def scatter_S200000x256_S400000x1_S400000x256_1_0_0_1 : ScatterDims S200000x256 S400000x1 S400000x256 where
  updateWindowDims := [1]
  insertedWindowDims := [0]
  scatterDimsToOperandDims := [0]
  indexVectorDim := 1
  wf := scatter_S200000x256_S400000x1_S400000x256_1_0_0_1_wf
def scatter_S4096x256_S200000x1_S200000x256_1_0_0_1 : ScatterDims S4096x256 S200000x1 S200000x256 where
  updateWindowDims := [1]
  insertedWindowDims := [0]
  scatterDimsToOperandDims := [0]
  indexVectorDim := 1
  wf := scatter_S4096x256_S200000x1_S200000x256_1_0_0_1_wf
def scatter_S4096_S200000x1_S200000_n_0_0_1 : ScatterDims S4096 S200000x1 S200000 where
  updateWindowDims := []
  insertedWindowDims := [0]
  scatterDimsToOperandDims := [0]
  indexVectorDim := 1
  wf := scatter_S4096_S200000x1_S200000_n_0_0_1_wf

class Facts : Prop extends Facts₀ where

variable [Facts]
-- ==== Proof.KernelRun.lean ====
/-
  The idealized kernel's run with its result named.

  The program is nine segments: five stretches of host operations and, between them, four pipelined regions. The
  generated frame folds the buffer contents through the segments (`W0` the launch memory, `W1` after the first stretch,
  `W2` after the first region's write-backs, … `W9` at the return) and proves that every weakly fair execution ends
  with every unscoped buffer at `W9`'s contents; it states only that the arguments end unchanged. Here the same run is
  stated for every unscoped buffer, so the result buffer's final contents are `W9` at that buffer.
-/
import proofs.«109877_j21148418966315_2_alg».proof.Proof.GenP.KernelIdeal.Frame

set_option maxRecDepth 16384

noncomputable section

namespace Cert.KernelIdeal.Whole

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer of every core
    at the contents the fold through the nine segments gives it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- The same run, stated for the result and the sixteen arguments: the result buffer ends at `W9`'s contents there, and
    each argument ends as launched. -/
theorem run_result : θ_run defs (onTc (τ := τ) (main (F := F))) ⟨m, fun _ => 0, ρ⟩ (fun r => ∀ c : Dev nD,
      r.2.mem ((c.tc : Thread nD τ).loc main_v53) = W9 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨h c _ (mem_uc main_v53 (by decide)),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c),
     (h c _ (mem_uc main_arg8 (by decide))).trans (W9_main_arg8 m ρ c),
     (h c _ (mem_uc main_arg9 (by decide))).trans (W9_main_arg9 m ρ c),
     (h c _ (mem_uc main_arg10 (by decide))).trans (W9_main_arg10 m ρ c),
     (h c _ (mem_uc main_arg11 (by decide))).trans (W9_main_arg11 m ρ c),
     (h c _ (mem_uc main_arg12 (by decide))).trans (W9_main_arg12 m ρ c),
     (h c _ (mem_uc main_arg13 (by decide))).trans (W9_main_arg13 m ρ c),
     (h c _ (mem_uc main_arg14 (by decide))).trans (W9_main_arg14 m ρ c),
     (h c _ (mem_uc main_arg15 (by decide))).trans (W9_main_arg15 m ρ c)⟩)
    (run_all m ρ)

end Cert.KernelIdeal.Whole

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibPlainDot.lean ====
/-
  The host's plain matrix product `[a, n] × [n, b]` (a `stablehlo.dot_general` contracting the left operand's columns
  with the right operand's rows, no batch axis) read at an entry on the extended reals: entry `(r, j)` is the sum over
  `k` of the left operand at `(r, k)` times the right operand at `(k, j)`. General over the three extents, the two
  operand formats and the precision.
-/
import proofs.«109877_j21148418966315_2_alg».proof.Proof.LibPlainMatmul

noncomputable section

open scoped BigOperators

namespace Cert.LibPlainDot

open Idealize.ShloMosaic Idealize.ShloMosaic.ValueIdx

variable {a n b : ℕ}

/-- The host's plain matrix product, at entry `(r, j)`, is `Σₖ A (r, k) · B (k, j)`. -/
theorem dotGeneral_apply {φ₁ φ₂ : FTy} (prec : Option ContractPrecision) (A : FVec Ideal ⟨2, ![a, n]⟩ φ₁)
    (B : FVec Ideal ⟨2, ![n, b]⟩ φ₂) (r : Fin a) (j : Fin b) :
    Host.dotGeneral (DotDims.plain a n b) prec A B (ix2 r j) = ∑ k : Fin n, A (ix2 r k) * B (ix2 k j) := by
  show FloatOps.dotGeneral (DotDims.plain a n b) prec .single A B (ix2 r j) = _
  rw [Ideal.dotGeneral_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact Cert.LibPlainMatmul.lhs_row _ _
      | ⟨1, _⟩ => exact (Cert.LibPlainMatmul.lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (Cert.LibPlainMatmul.rhs_row _ _).trans hk
      | ⟨1, _⟩ => exact Cert.LibPlainMatmul.rhs_col _ _)
  rw [el, er]

end Cert.LibPlainDot

end
-- ==== Proof.LibBlockLayout.lean ====
/-
  Three layout steps of a pipelined kernel body, read at an entry, for any extents.

  A window's block carries a leading unit axis: a body that works on matrices casts a [1, R, C] block to an [R, C]
  matrix on loading and an [R, C] result back to a [1, R, C] block on storing; and a bias kept as a [1, N] row is
  repeated down the R rows of the matrix it is added to. Each step, read at an entry, is the operand read at the
  evident entry: the row-major position of (0, r, c) among [1, R, C] is that of (r, c) among [R, C].
-/
import Idealize.ShloMosaic.Lib.Pipeline.Value
import Idealize.ShloMosaic.Lib.ValueIdx

noncomputable section

namespace Cert.LibBlockLayout

open Idealize.ShloMosaic Idealize.ShloMosaic.ValueIdx

/-- A [1, R, C] block viewed as an [R, C] matrix reads, at (r, c), the block at (0, r, c). -/
theorem dropUnit_at {α : Type} {R C : ℕ} (v : (⟨3, ![1, R, C]⟩ : Shape).Idx → α)
    (h : (⟨3, ![1, R, C]⟩ : Shape).ShapeCasts ⟨2, ![R, C]⟩) (r : Fin R) (c : Fin C) :
    shapeCast ⟨2, ![R, C]⟩ v h (ix2 r c) = v (ix3 (0 : Fin 1) r c) := by
  refine shapeCast_apply v h (ix2 r c) (ix3 (0 : Fin 1) r c) ?_
  rw [Shape.rowMajor_val_three, Shape.rowMajor_val_two]
  show ((0 : ℕ) * R + r.val) * C + c.val = r.val * C + c.val
  rw [Nat.zero_mul, Nat.zero_add]

/-- An [R, C] matrix stored as a [1, R, C] block reads, at (0, r, c), the matrix at (r, c). -/
theorem addUnit_at {α : Type} {R C : ℕ} (v : (⟨2, ![R, C]⟩ : Shape).Idx → α)
    (h : (⟨2, ![R, C]⟩ : Shape).ShapeCasts ⟨3, ![1, R, C]⟩) (r : Fin R) (c : Fin C) :
    shapeCast ⟨3, ![1, R, C]⟩ v h (ix3 (0 : Fin 1) r c) = v (ix2 r c) := by
  refine shapeCast_apply v h (ix3 (0 : Fin 1) r c) (ix2 r c) ?_
  rw [Shape.rowMajor_val_three, Shape.rowMajor_val_two]
  show r.val * C + c.val = ((0 : ℕ) * R + r.val) * C + c.val
  rw [Nat.zero_mul, Nat.zero_add]

/-- A [1, N] row repeated down R rows reads, at (r, g), the row at (0, g). -/
theorem rowBroadcast_at {α : Type} {R N : ℕ} (row : (⟨2, ![1, N]⟩ : Shape).Idx → α)
    (hb : (⟨2, ![1, N]⟩ : Shape).Broadcasts ⟨2, ![R, N]⟩) (r : Fin R) (g : Fin N) :
    broadcastTo ⟨2, ![R, N]⟩ row hb (ix2 r g) = row (ix2 (0 : Fin 1) g) := by
  refine broadcastTo_apply row hb (ix2 r g) (ix2 (0 : Fin 1) g) (fun a => ?_)
  match a with
  | ⟨0, _⟩ => show (0 : ℕ) = if (1 : ℕ) = 1 then 0 else _; rw [if_pos rfl]
  | ⟨1, _⟩ =>
    show g.val = if N = 1 then 0 else g.val
    split_ifs with h
    · have := g.isLt; omega
    · rfl

end Cert.LibBlockLayout

end
-- ==== Proof.LibHostRows.lean ====
/-
  The host's keep-dimension broadcasts and its row sum, read at an entry, for any extents.

  `jnp` writes `v[:, None]` as a `broadcast_in_dim` of an `[a]` vector into an `[a, 1]` column (the vector's axis sent
  to axis 0), repeats such a column along `b` columns by a `broadcast_in_dim` with the identity axis map, writes a bias
  `[b]` as a `[1, b]` row (the vector's axis sent to axis 1) and repeats that row down `a` rows. Each, read at an
  entry, is the operand at the evident entry. A host sum over the second axis of an `[a, b]` matrix, read at row `r`
  on the extended reals, is the initial value plus the sum of that row's entries.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.LibHostRows

open Idealize.ShloMosaic Idealize.ShloMosaic.ValueIdx

variable {α : Type}

/-- An `[a]` vector broadcast into the column `[a, 1]` reads, at `(r, u)`, the vector at `r`. -/
theorem bcast_a_a1_at {a : ℕ} (dims : Fin (⟨1, ![a]⟩ : Shape).rank → Fin (⟨2, ![a, 1]⟩ : Shape).rank) (hd : dims 0 = 0)
    (h : (⟨1, ![a]⟩ : Shape).BroadcastsInDim ⟨2, ![a, 1]⟩ dims) (x : (⟨1, ![a]⟩ : Shape).Idx → α) (r : Fin a) (u : Fin 1) :
    broadcastInDim ⟨2, ![a, 1]⟩ dims h x (ix2 r u) = x (ix1 r) := by
  refine broadcastInDim_apply dims h x (ix2 r u) (ix1 r) fun ax => ?_
  match ax with
  | ⟨0, _⟩ =>
    show r.val = if a = 1 then 0 else (ix2 r u (dims 0)).val
    rw [hd]
    split
    · have := r.isLt; omega
    · rfl

/-- A column `[a, 1]` broadcast along `b` columns reads, at `(r, k)`, the column at `r`. -/
theorem bcast_a1_ab_at {a b : ℕ} (dims : Fin (⟨2, ![a, 1]⟩ : Shape).rank → Fin (⟨2, ![a, b]⟩ : Shape).rank)
    (hd0 : dims 0 = 0) (hd1 : dims 1 = 1)
    (h : (⟨2, ![a, 1]⟩ : Shape).BroadcastsInDim ⟨2, ![a, b]⟩ dims) (x : (⟨2, ![a, 1]⟩ : Shape).Idx → α) (r : Fin a) (k : Fin b) :
    broadcastInDim ⟨2, ![a, b]⟩ dims h x (ix2 r k) = x (ix2 r (0 : Fin 1)) := by
  refine broadcastInDim_apply dims h x (ix2 r k) (ix2 r (0 : Fin 1)) fun ax => ?_
  match ax with
  | ⟨0, _⟩ =>
    show r.val = if a = 1 then 0 else (ix2 r k (dims 0)).val
    rw [hd0]
    split
    · have := r.isLt; omega
    · rfl
  | ⟨1, _⟩ =>
    show (0 : ℕ) = if (1 : ℕ) = 1 then 0 else (ix2 r k (dims 1)).val
    rw [if_pos rfl]

/-- A vector `[b]` broadcast into the row `[1, b]` reads, at `(u, j)`, the vector at `j`. -/
theorem bcast_b_1b_at {b : ℕ} (dims : Fin (⟨1, ![b]⟩ : Shape).rank → Fin (⟨2, ![1, b]⟩ : Shape).rank) (hd : dims 0 = 1)
    (h : (⟨1, ![b]⟩ : Shape).BroadcastsInDim ⟨2, ![1, b]⟩ dims) (x : (⟨1, ![b]⟩ : Shape).Idx → α) (u : Fin 1) (j : Fin b) :
    broadcastInDim ⟨2, ![1, b]⟩ dims h x (ix2 u j) = x (ix1 j) := by
  refine broadcastInDim_apply dims h x (ix2 u j) (ix1 j) fun ax => ?_
  match ax with
  | ⟨0, _⟩ =>
    show j.val = if b = 1 then 0 else (ix2 u j (dims 0)).val
    rw [hd]
    split
    · have := j.isLt; omega
    · rfl

/-- A row `[1, b]` repeated down `a` rows reads, at `(r, j)`, the row at `j`. -/
theorem bcast_1b_ab_at {a b : ℕ} (dims : Fin (⟨2, ![1, b]⟩ : Shape).rank → Fin (⟨2, ![a, b]⟩ : Shape).rank)
    (hd0 : dims 0 = 0) (hd1 : dims 1 = 1)
    (h : (⟨2, ![1, b]⟩ : Shape).BroadcastsInDim ⟨2, ![a, b]⟩ dims) (x : (⟨2, ![1, b]⟩ : Shape).Idx → α) (r : Fin a) (j : Fin b) :
    broadcastInDim ⟨2, ![a, b]⟩ dims h x (ix2 r j) = x (ix2 (0 : Fin 1) j) := by
  refine broadcastInDim_apply dims h x (ix2 r j) (ix2 (0 : Fin 1) j) fun ax => ?_
  match ax with
  | ⟨0, _⟩ =>
    show (0 : ℕ) = if (1 : ℕ) = 1 then 0 else (ix2 r j (dims 0)).val
    rw [if_pos rfl]
  | ⟨1, _⟩ =>
    show j.val = if b = 1 then 0 else (ix2 r j (dims 1)).val
    rw [hd1]
    split
    · have := j.isLt; omega
    · rfl

/-- On the extended reals the host's sum over the second axis of an `[a, b]` matrix is, at row `r`, the initial value plus
    the sum of that row's entries. -/
theorem hostReduceAdd_rows {a b : ℕ} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ d : Fin b, x (ix2 r d) := by
  rw [hostReduceAdd_apply, Ideal.hostReduceAdd_single h' h]
  refine congrArg (init (Shape.Idx.first hu) + ·) (Finset.sum_congr rfl fun d _ => congrArg x (funext fun ax => Fin.ext ?_))
  match ax with
  | ⟨0, _⟩ => rfl
  | ⟨1, _⟩ => rfl

end Cert.LibHostRows

end
-- ==== Proof.Layers.lean ====
/-
  The two layers of the edge-conditioned message-passing network, as functions of whole arrays on the extended reals,
  and the two ways the programs spell each of them.

  A DENSE ROW is `(A · B)(r, j) + bias j`, the product read as the sum over the contracted index. An EDGE MESSAGE is
  `max (x_src(e, j) + dense(edge_attr, We, be)(e, j), 0)`; a NODE UPDATE is two dense rows with a `max(·, 0)` after each,
  applied to `x + aggr`. The bias enters as a one-row matrix `[1, b]`.

  The kernel computes a block of rows at a time: a matrix product into a zero accumulator, a one-row bias repeated down
  the block's rows, `max` against a broadcast zero, and changes of float format, which are the identity on the extended
  reals. The reference computes the whole array at once: the host's matrix product, the bias row repeated down all rows,
  `max` against a broadcast zero constant. Read at an entry, both are the same sum; no law beyond reading each operation
  at an index is used, so nothing here needs the entries to be finite.
-/
import Idealize.ShloMosaic.Lib.Pipeline.Value
import Idealize.ShloMosaic.Lib.ValueIdx
import Idealize.ShloMosaic.PureOps.Ideal.Laws
import proofs.«109877_j21148418966315_2_alg».proof.Proof.LibPlainMatmul
import proofs.«109877_j21148418966315_2_alg».proof.Proof.LibPlainDot
import proofs.«109877_j21148418966315_2_alg».proof.Proof.LibBlockLayout
import proofs.«109877_j21148418966315_2_alg».proof.Proof.LibHostRows

noncomputable section

open scoped BigOperators

namespace Cert.Gine

open Idealize.ShloMosaic Idealize.ShloMosaic.ValueIdx

/-- An `[a, b]` matrix of extended reals. -/
abbrev Mat (a b : ℕ) : Type := (⟨2, ![a, b]⟩ : Shape).Idx → EReal

/-- The float zero word, read on the extended reals (never evaluated: the same word stands on both sides). -/
abbrev zeroW : EReal := Ideal.ofBits .f32 0x00000000#32

/-- A dense row: the matrix product plus the one-row bias, entry by entry. -/
def dense {a n b : ℕ} (A : Mat a n) (B : Mat n b) (row : Mat 1 b) : Mat a b :=
  fun i => (∑ k : Fin n, A (ix2 (i 0 : Fin a) k) * B (ix2 k (i 1 : Fin b))) + row (ix2 (0 : Fin 1) (i 1 : Fin b))

theorem dense_at {a n b : ℕ} (A : Mat a n) (B : Mat n b) (row : Mat 1 b) (r : Fin a) (j : Fin b) :
    dense A B row (ix2 r j) = (∑ k : Fin n, A (ix2 r k) * B (ix2 k j)) + row (ix2 (0 : Fin 1) j) := rfl

/-- The message of every edge: the gathered source row plus the projected edge attributes, clipped at zero. -/
def edgeMsg {e n d : ℕ} (xs : Mat e d) (ea : Mat e n) (We : Mat n d) (be : Mat 1 d) : Mat e d :=
  fun i => max (xs i + dense ea We be i) zeroW

/-- The update of every node: two dense rows, each clipped at zero, of the node's own row plus its aggregate. -/
def nodeMlp {N p h q : ℕ} (x ag : Mat N p) (Wa : Mat p h) (ba : Mat 1 h) (Wb : Mat h q) (bb : Mat 1 q) : Mat N q :=
  fun i => max (dense (fun u => max (dense (fun w => x w + ag w) Wa ba u) zeroW) Wb bb i) zeroW

/-! ## The kernel's spelling, one block of rows -/

/-- A dense row as a kernel block computes it: the product into the zero accumulator plus the bias row repeated
    down the block, at an entry. -/
theorem block_dense_at {a n b : ℕ} {φ₁ φ₂ : FTy} (A : FVec Ideal ⟨2, ![a, n]⟩ φ₁) (B : FVec Ideal ⟨2, ![n, b]⟩ φ₂)
    (row : FVec Ideal ⟨2, ![1, b]⟩ .f32) (hb : (⟨2, ![1, b]⟩ : Shape).Broadcasts ⟨2, ![a, b]⟩) (r : Fin a) (j : Fin b) :
    addf (FloatOps.matmul (DotDims.plain a n b) none A B (constant ⟨2, ![a, b]⟩ .f32 0x00000000#32))
        (broadcastTo ⟨2, ![a, b]⟩ row hb) (ix2 r j)
      = (∑ k : Fin n, A (ix2 r k) * B (ix2 k j)) + row (ix2 (0 : Fin 1) j) := by
  rw [addf_apply, Cert.LibPlainMatmul.matmul_zero_apply, Cert.LibBlockLayout.rowBroadcast_at]

/-- One block of edge messages, at local entry `y`, is the whole-array message at the entry `I` the block's entry
    sits at: the source rows and edge attributes of the block are those of the array at `I`'s row, the weights and
    the bias are shared by all blocks. -/
theorem edge_block {A n b E : ℕ} (x0 : FVec Ideal ⟨2, ![A, b]⟩ .f32) (x1 : FVec Ideal ⟨2, ![A, n]⟩ .f32)
    (x2 : FVec Ideal ⟨2, ![n, b]⟩ .bf16) (x3 : FVec Ideal ⟨2, ![1, b]⟩ .f32)
    (XS : Mat E b) (EA : Mat E n) (WE : Mat n b) (ROW : Mat 1 b)
    (hb : (⟨2, ![1, b]⟩ : Shape).Broadcasts ⟨2, ![A, b]⟩) (hlt : FTy.bf16.bits < FTy.f32.bits)
    (y : (⟨2, ![A, b]⟩ : Shape).Idx) (I : (⟨2, ![E, b]⟩ : Shape).Idx)
    (e0 : x0 y = XS I) (e1 : ∀ k : Fin n, x1 (ix2 (y 0 : Fin A) k) = EA (ix2 (I 0 : Fin E) k))
    (e2 : x2 = WE) (e3 : x3 = ROW) (hj : ((y 1 : Fin b)).val = ((I 1 : Fin b)).val) :
    (truncf .bf16 (maximumf (addf x0 (addf (FloatOps.matmul (DotDims.plain A n b) none (truncf .bf16 x1 hlt) x2
          (constant ⟨2, ![A, b]⟩ .f32 0x00000000#32)) (broadcastTo ⟨2, ![A, b]⟩ x3 hb)))
        (broadcast ⟨2, ![A, b]⟩ (Scalar.ofBits .f32 0x00000000#32))) hlt : FVec Ideal ⟨2, ![A, b]⟩ .bf16) y
      = edgeMsg XS EA WE ROW I := by
  obtain ⟨r, j, rfl⟩ : ∃ (r : Fin A) (j : Fin b), y = ix2 r j := ⟨y 0, y 1, eq_ix2 y⟩
  obtain ⟨R, j', rfl⟩ : ∃ (R : Fin E) (j' : Fin b), I = ix2 R j' := ⟨I 0, I 1, eq_ix2 I⟩
  obtain rfl : j = j' := Fin.ext hj
  subst e2 e3
  rw [truncf_apply, maximumf_apply, addf_apply, broadcast_apply, e0, block_dense_at]
  unfold edgeMsg
  rw [dense_at]
  refine congrArg (fun s => max (XS (ix2 R j) + (s + x3 (ix2 (0 : Fin 1) j))) _) (Finset.sum_congr rfl fun k _ => ?_)
  exact congrArg (· * x2 (ix2 k j)) (e1 k)

end Cert.Gine

end
-- ==== Proof.HostForms.lean ====
/-
  The reference's spelling of the two layers, on whole arrays.

  The host program writes a dense row as its matrix product plus the bias row repeated down all rows by a
  `broadcast_in_dim` with the identity axis map, and `max(·, 0)` as a maximum against the zero constant broadcast to the
  whole shape. Read at an entry these are the sum over the contracted index plus the bias entry, and the maximum with
  the zero word: the functions `edgeMsg` and `nodeMlp`. The bias row itself is the `[b]` vector as a `[1, b]` matrix: a
  reshape in the kernel's program, a `broadcast_in_dim` sending the vector's axis to axis 1 in the reference's; entry
  `(0, j)` of either is the vector's entry `j`.
-/
import proofs.«109877_j21148418966315_2_alg».proof.Proof.Layers

noncomputable section

open scoped BigOperators

namespace Cert.Gine

open Idealize.ShloMosaic Idealize.ShloMosaic.ValueIdx

/-- The zero constant broadcast to any shape reads the zero word everywhere. -/
theorem host_zero_at {t : Shape} (d : Fin (⟨0, ![]⟩ : Shape).rank → Fin t.rank)
    (h : (⟨0, ![]⟩ : Shape).BroadcastsInDim t d) (i : t.Idx) :
    broadcastInDim t d h (constant (F := Ideal) ⟨0, ![]⟩ .f32 0x00000000#32) i = zeroW :=
  broadcastInDim_apply d h _ i ix0 (fun a => a.elim0)

/-- The host's dense row at an entry: the sum over the contracted index plus the bias row's entry. -/
theorem host_dense_at {a n b : ℕ} {φ₁ φ₂ : FTy} (A : FVec Ideal ⟨2, ![a, n]⟩ φ₁) (B : FVec Ideal ⟨2, ![n, b]⟩ φ₂)
    (row : FVec Ideal ⟨2, ![1, b]⟩ .f32)
    (d2 : Fin (⟨2, ![1, b]⟩ : Shape).rank → Fin (⟨2, ![a, b]⟩ : Shape).rank) (hd0 : d2 0 = 0) (hd1 : d2 1 = 1)
    (h2 : (⟨2, ![1, b]⟩ : Shape).BroadcastsInDim ⟨2, ![a, b]⟩ d2) (r : Fin a) (j : Fin b) :
    addf (Host.dotGeneral (DotDims.plain a n b) none A B) (broadcastInDim ⟨2, ![a, b]⟩ d2 h2 row) (ix2 r j)
      = (∑ k : Fin n, A (ix2 r k) * B (ix2 k j)) + row (ix2 (0 : Fin 1) j) := by
  rw [addf_apply, Cert.LibPlainDot.dotGeneral_apply, Cert.LibHostRows.bcast_1b_ab_at d2 hd0 hd1]

/-- The reference's edge messages, as one array, are `edgeMsg`. -/
theorem host_edge_eq {e n d : ℕ} (xs : FVec Ideal ⟨2, ![e, d]⟩ .f32) (ea : FVec Ideal ⟨2, ![e, n]⟩ .f32)
    (We : FVec Ideal ⟨2, ![n, d]⟩ .f32) (row : FVec Ideal ⟨2, ![1, d]⟩ .f32)
    (d2 : Fin (⟨2, ![1, d]⟩ : Shape).rank → Fin (⟨2, ![e, d]⟩ : Shape).rank) (hd0 : d2 0 = 0) (hd1 : d2 1 = 1)
    (h2 : (⟨2, ![1, d]⟩ : Shape).BroadcastsInDim ⟨2, ![e, d]⟩ d2)
    (d0 : Fin (⟨0, ![]⟩ : Shape).rank → Fin (⟨2, ![e, d]⟩ : Shape).rank) (h0 : (⟨0, ![]⟩ : Shape).BroadcastsInDim ⟨2, ![e, d]⟩ d0) :
    maximumf (addf xs (addf (Host.dotGeneral (DotDims.plain e n d) none ea We) (broadcastInDim ⟨2, ![e, d]⟩ d2 h2 row)))
        (broadcastInDim ⟨2, ![e, d]⟩ d0 h0 (constant ⟨0, ![]⟩ .f32 0x00000000#32))
      = edgeMsg xs ea We row := by
  funext i
  obtain ⟨r, j, rfl⟩ : ∃ (r : Fin e) (j : Fin d), i = ix2 r j := ⟨i 0, i 1, eq_ix2 i⟩
  rw [maximumf_apply, addf_apply, host_dense_at ea We row d2 hd0 hd1 h2, host_zero_at]
  rfl

/-- The reference's node updates, as one array, are `nodeMlp`. -/
theorem host_node_eq {N p h q : ℕ} (x ag : FVec Ideal ⟨2, ![N, p]⟩ .f32) (Wa : FVec Ideal ⟨2, ![p, h]⟩ .f32)
    (ba : FVec Ideal ⟨2, ![1, h]⟩ .f32) (Wb : FVec Ideal ⟨2, ![h, q]⟩ .f32) (bb : FVec Ideal ⟨2, ![1, q]⟩ .f32)
    (da : Fin (⟨2, ![1, h]⟩ : Shape).rank → Fin (⟨2, ![N, h]⟩ : Shape).rank) (hda0 : da 0 = 0) (hda1 : da 1 = 1)
    (ha : (⟨2, ![1, h]⟩ : Shape).BroadcastsInDim ⟨2, ![N, h]⟩ da)
    (db : Fin (⟨2, ![1, q]⟩ : Shape).rank → Fin (⟨2, ![N, q]⟩ : Shape).rank) (hdb0 : db 0 = 0) (hdb1 : db 1 = 1)
    (hb : (⟨2, ![1, q]⟩ : Shape).BroadcastsInDim ⟨2, ![N, q]⟩ db)
    (za : Fin (⟨0, ![]⟩ : Shape).rank → Fin (⟨2, ![N, h]⟩ : Shape).rank) (hza : (⟨0, ![]⟩ : Shape).BroadcastsInDim ⟨2, ![N, h]⟩ za)
    (zb : Fin (⟨0, ![]⟩ : Shape).rank → Fin (⟨2, ![N, q]⟩ : Shape).rank) (hzb : (⟨0, ![]⟩ : Shape).BroadcastsInDim ⟨2, ![N, q]⟩ zb) :
    maximumf (addf (Host.dotGeneral (DotDims.plain N h q) none
          (maximumf (addf (Host.dotGeneral (DotDims.plain N p h) none (addf x ag) Wa) (broadcastInDim ⟨2, ![N, h]⟩ da ha ba))
            (broadcastInDim ⟨2, ![N, h]⟩ za hza (constant ⟨0, ![]⟩ .f32 0x00000000#32)))
          Wb) (broadcastInDim ⟨2, ![N, q]⟩ db hb bb))
        (broadcastInDim ⟨2, ![N, q]⟩ zb hzb (constant ⟨0, ![]⟩ .f32 0x00000000#32))
      = nodeMlp x ag Wa ba Wb bb := by
  funext i
  obtain ⟨r, j, rfl⟩ : ∃ (r : Fin N) (j : Fin q), i = ix2 r j := ⟨i 0, i 1, eq_ix2 i⟩
  rw [maximumf_apply, host_dense_at _ Wb bb db hdb0 hdb1 hb, host_zero_at]
  unfold nodeMlp
  rw [dense_at]
  refine congrArg (fun s => max (s + bb (ix2 (0 : Fin 1) j)) zeroW) (Finset.sum_congr rfl fun k _ => ?_)
  refine congrArg (· * Wb (ix2 k j)) ?_
  rw [maximumf_apply, host_dense_at _ Wa ba da hda0 hda1 ha, host_zero_at]
  rfl

/-- The bias vector as a one-row matrix: the reshape and the broadcast that sends the vector's axis to axis 1 are one
    function. -/
theorem row_cast_eq_bcast {b : ℕ} (v : (⟨1, ![b]⟩ : Shape).Idx → EReal) (h : (⟨1, ![b]⟩ : Shape).ShapeCasts ⟨2, ![1, b]⟩)
    (d1 : Fin (⟨1, ![b]⟩ : Shape).rank → Fin (⟨2, ![1, b]⟩ : Shape).rank) (hd : d1 0 = 1)
    (h1 : (⟨1, ![b]⟩ : Shape).BroadcastsInDim ⟨2, ![1, b]⟩ d1) :
    shapeCast ⟨2, ![1, b]⟩ v h = broadcastInDim ⟨2, ![1, b]⟩ d1 h1 v := by
  funext i
  obtain ⟨u, j, rfl⟩ : ∃ (u : Fin 1) (j : Fin b), i = ix2 u j := ⟨i 0, i 1, eq_ix2 i⟩
  rw [Cert.LibHostRows.bcast_b_1b_at d1 hd h1 v u j]
  refine shapeCast_apply v h (ix2 u j) (ix1 j) ?_
  rw [Shape.rowMajor_val_one, Shape.rowMajor_val_two]
  have hu : u.val = 0 := by have := u.isLt; omega
  show j.val = u.val * b + j.val
  rw [hu, Nat.zero_mul, Nat.zero_add]

end Cert.Gine

end
-- ==== Proof.RefStages.lean ====
/-
  The reference's four layer stages, each as ONE array function of the stage before it.

  The reference computes the messages of a layer as `max(gather + (edge_attr · We + bias), 0)` and the node update as
  `max(max((x + aggr) · Wa + ba, 0) · Wb + bb, 0)`, whole arrays at a time. Its generated stage functions spell these
  with the host's matrix product, the bias row repeated down all rows and the zero constant broadcast; unfolded to that
  spelling they are `edgeMsg` and `nodeMlp` of the gathered rows / the aggregate and of the weight and bias arguments.
  The gathers and the scatter-adds between the layers stay as the stage functions name them: both programs apply the
  same ones to these arrays.
-/
import proofs.«109877_j21148418966315_2_alg».proof.Proof.Gen.ReferenceIdeal.Read
import proofs.«109877_j21148418966315_2_alg».proof.Proof.HostForms

noncomputable section

namespace Cert.ReferenceIdeal.Stages

open Cert.ReferenceIdeal Cert.ReferenceIdeal.Read Cert.Gine Idealize.ShloMosaic

variable (x0 : (⟨S200000x128, .f32⟩ : BufTy).Contents (Elt Ideal)) (x1 : (⟨S400000x16, .f32⟩ : BufTy).Contents (Elt Ideal)) (x2 : (⟨S16x128, .f32⟩ : BufTy).Contents (Elt Ideal))
  (x3 : (⟨S128, .f32⟩ : BufTy).Contents (Elt Ideal)) (x4 : (⟨S128x256, .f32⟩ : BufTy).Contents (Elt Ideal)) (x5 : (⟨S256, .f32⟩ : BufTy).Contents (Elt Ideal))
  (x6 : (⟨S256x256, .f32⟩ : BufTy).Contents (Elt Ideal)) (x7 : (⟨S256, .f32⟩ : BufTy).Contents (Elt Ideal)) (x8 : (⟨S16x256, .f32⟩ : BufTy).Contents (Elt Ideal))
  (x9 : (⟨S256, .f32⟩ : BufTy).Contents (Elt Ideal)) (x10 : (⟨S256x256, .f32⟩ : BufTy).Contents (Elt Ideal)) (x11 : (⟨S256, .f32⟩ : BufTy).Contents (Elt Ideal))
  (x12 : (⟨S256x256, .f32⟩ : BufTy).Contents (Elt Ideal)) (x13 : (⟨S256, .f32⟩ : BufTy).Contents (Elt Ideal)) (x14 : (⟨S2x400000, .i32⟩ : BufTy).Contents (Elt Ideal))

/-- The first layer's messages: `edgeMsg` of the gathered input rows, the edge attributes, `We1` and `be1` as a row. -/
theorem msg1 : val_main_v16 (F := Ideal) x0 x1 x2 x3 x14
    = edgeMsg (val_main_v14 (F := Ideal) x0 x14) x1 x2 (val_main_v5 (F := Ideal) x3) := by
  unfold val_main_v16 val_main_v15 val_main_v7 val_main_v6 val_main_v4 val_main_call0_v0 val_main_call0_cst
  exact host_edge_eq (val_main_v14 (F := Ideal) x0 x14) x1 x2 (val_main_v5 (F := Ideal) x3) ![0, 1] rfl rfl
    _ ![] _

/-- The first layer's node update: `nodeMlp` of the input features, the aggregated messages, and the layer's weights. -/
theorem upd1 : val_main_v30 (F := Ideal) x0 x1 x2 x3 x4 x5 x6 x7 x14
    = nodeMlp x0 (val_main_v19 (F := Ideal) x0 x1 x2 x3 x14) x4 (val_main_v22 (F := Ideal) x5) x6 (val_main_v27 (F := Ideal) x7) := by
  unfold val_main_v30 val_main_v29 val_main_v28 val_main_v26 val_main_v25 val_main_v24 val_main_v23 val_main_v21 val_main_v20
    val_main_call1_v0 val_main_call1_cst val_main_call2_v0 val_main_call2_cst
  exact host_node_eq x0 (val_main_v19 (F := Ideal) x0 x1 x2 x3 x14) x4 (val_main_v22 (F := Ideal) x5) x6 (val_main_v27 (F := Ideal) x7)
    ![0, 1] rfl rfl _ ![0, 1] rfl rfl _
    ![] _ ![] _

/-- The second layer's messages. -/
theorem msg2 : val_main_v43 (F := Ideal) x0 x1 x2 x3 x4 x5 x6 x7 x8 x9 x14
    = edgeMsg (val_main_v41 (F := Ideal) x0 x1 x2 x3 x4 x5 x6 x7 x14) x1 x8 (val_main_v32 (F := Ideal) x9) := by
  unfold val_main_v43 val_main_v42 val_main_v34 val_main_v33 val_main_v31 val_main_call3_v0 val_main_call3_cst
  exact host_edge_eq (val_main_v41 (F := Ideal) x0 x1 x2 x3 x4 x5 x6 x7 x14) x1 x8 (val_main_v32 (F := Ideal) x9) ![0, 1] rfl rfl
    _ ![] _

/-- The second layer's node update. -/
theorem upd2 : val_main_v57 (F := Ideal) x0 x1 x2 x3 x4 x5 x6 x7 x8 x9 x10 x11 x12 x13 x14
    = nodeMlp (val_main_v30 (F := Ideal) x0 x1 x2 x3 x4 x5 x6 x7 x14) (val_main_v46 (F := Ideal) x0 x1 x2 x3 x4 x5 x6 x7 x8 x9 x14)
        x10 (val_main_v49 (F := Ideal) x11) x12 (val_main_v54 (F := Ideal) x13) := by
  unfold val_main_v57 val_main_v56 val_main_v55 val_main_v53 val_main_v52 val_main_v51 val_main_v50 val_main_v48 val_main_v47
    val_main_call4_v0 val_main_call4_cst val_main_call5_v0 val_main_call5_cst
  exact host_node_eq (val_main_v30 (F := Ideal) x0 x1 x2 x3 x4 x5 x6 x7 x14) (val_main_v46 (F := Ideal) x0 x1 x2 x3 x4 x5 x6 x7 x8 x9 x14)
    x10 (val_main_v49 (F := Ideal) x11) x12 (val_main_v54 (F := Ideal) x13)
    ![0, 1] rfl rfl _ ![0, 1] rfl rfl _
    ![] _ ![] _

end Cert.ReferenceIdeal.Stages

end
-- ==== Proof.Region0.lean ====
/-
  The first edge kernel, from blocks to the whole array.

  The region walks 50 points; point `t` stages rows `8000·t … 8000·t + 7999` of the gathered source rows and of the edge
  attributes, the whole weight matrix and the whole bias row, and writes back rows `8000·t …` of the messages. So what
  point `t` writes back is block `t` of ONE array function of the region's four input arrays — `edgeMsg` of them —, the
  50 blocks tile the `[400000, 128]` result, and the result array after the region is that function, whatever the
  inputs hold when the region is entered.
-/
import proofs.«109877_j21148418966315_2_alg».proof.Proof.GenP.KernelIdeal.Frame
import proofs.«109877_j21148418966315_2_alg».proof.Proof.Layers

set_option maxRecDepth 16384

noncomputable section

namespace Cert.KernelIdeal.Region0

open Cert.KernelIdeal Cert.KernelIdeal.Gen Cert.KernelIdeal.GenP Cert.Gine
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The printed index maps, decided over the 50 points: the row-blocked windows sit at block row `t`, column block 0;
    the weights and the bias row are one block. -/
theorem idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point `t` writes back is block `t` of the message array of the region's inputs. -/
theorem flushed (t : Fin cfg0.N) :
    (dat0 V c).flushed 4 t = ((cfg0.win 4).blk t).view.read (Elt Ideal)
      (edgeMsg (V c main_v22) (V c main_arg1) (V c main_v10) (V c main_v4)) := by
  show (cfg0.win 4).cut (grid0.coords t) ((dat0 V c).after 4 t) = _
  rw [after0_4]
  unfold out0_4
  rw [View.canon_unit_zero hz]
  simp only [View.ld_unit_zero (S := S8000x16) hz, View.ld_unit_zero (S := S16x128) hz,
    View.ld_unit_zero (S := S1x128) hz, View.ld_unit_zero (S := S8000x128) hz]
  obtain ⟨h00, h01, h10, h11, h20, h21, h30, h31, h40, h41⟩ := idx t
  funext y
  show (k0_pay1 (iblk0 V c 1 t) (iblk0 V c 2 t) (iblk0 V c 3 t) (iblk0 V c 0 t) : FVec Ideal S8000x128 .bf16) y
    = edgeMsg (V c main_v22) (V c main_arg1) (V c main_v10) (V c main_v4) (((cfg0.win 4).blk t).view.emb y)
  unfold k0_pay1
  dsimp only
  rw [shapeCast_self, shapeCast_self, shapeCast_self]
  refine edge_block (iblk0 V c 0 t) (iblk0 V c 1 t) (iblk0 V c 2 t) (iblk0 V c 3 t)
    (V c main_v22) (V c main_arg1) (V c main_v10) (V c main_v4) _ _ y (((cfg0.win 4).blk t).view.emb y) ?_ ?_ ?_ ?_ ?_
  · show V c main_v22 (((cfg0.win 0).blk t).view.emb y) = V c main_v22 (((cfg0.win 4).blk t).view.emb y)
    refine congrArg (V c main_v22) (funext fun a => Fin.ext ?_)
    match a with
    | ⟨0, _⟩ => show win0_0.index t (0 : Fin 2) * 8000 + 1 * (y 0).val = win0_4.index t (0 : Fin 2) * 8000 + 1 * (y 0).val; omega
    | ⟨1, _⟩ => show win0_0.index t (1 : Fin 2) * 128 + 1 * (y 1).val = win0_4.index t (1 : Fin 2) * 128 + 1 * (y 1).val; omega
  · intro k
    show V c main_arg1 (((cfg0.win 1).blk t).view.emb (ix2 (y 0 : Fin 8000) k))
      = V c main_arg1 (ix2 ((((cfg0.win 4).blk t).view.emb y) 0 : Fin 400000) k)
    refine congrArg (V c main_arg1) (funext fun a => Fin.ext ?_)
    match a with
    | ⟨0, _⟩ => show win0_1.index t (0 : Fin 2) * 8000 + 1 * (y 0).val = win0_4.index t (0 : Fin 2) * 8000 + 1 * (y 0).val; omega
    | ⟨1, _⟩ => show win0_1.index t (1 : Fin 2) * 16 + 1 * k.val = k.val; omega
  · funext y'
    show V c main_v10 (((cfg0.win 2).blk t).view.emb y') = V c main_v10 y'
    refine congrArg (V c main_v10) (funext fun a => Fin.ext ?_)
    match a with
    | ⟨0, _⟩ => show win0_2.index t (0 : Fin 2) * 16 + 1 * (y' 0).val = (y' 0).val; omega
    | ⟨1, _⟩ => show win0_2.index t (1 : Fin 2) * 128 + 1 * (y' 1).val = (y' 1).val; omega
  · funext y'
    show V c main_v4 (((cfg0.win 3).blk t).view.emb y') = V c main_v4 y'
    refine congrArg (V c main_v4) (funext fun a => Fin.ext ?_)
    match a with
    | ⟨0, _⟩ => show win0_3.index t (0 : Fin 2) * 1 + 1 * (y' 0).val = (y' 0).val; omega
    | ⟨1, _⟩ => show win0_3.index t (1 : Fin 2) * 128 + 1 * (y' 1).val = (y' 1).val; omega
  · show (y 1).val = win0_4.index t (1 : Fin 2) * 128 + 1 * (y 1).val; omega

/-- An index of the result array is in point `t`'s block iff each coordinate is in the block's range on its axis. -/
theorem mem_blk (t : Fin cfg0.N) (i : S400000x128.Idx) :
    i ∈ ((cfg0.win 4).blk t).view.set ↔ ∀ a : Fin 2, win0_4.index t a * S8000x128.size a ≤ (i a).val
      ∧ (i a).val < win0_4.index t a * S8000x128.size a + S8000x128.size a := by
  show i ∈ ((View.whole main_v23).slice (win0_4.rect t)).set ↔ _
  rw [View.set_slice_whole, Rect.mem_set_unit]
  exact Iff.rfl

/-- Every row of the result is in the block of the point its row number divided by 8000 names. -/
theorem cover (i : S400000x128.Idx) :
    ∃ t : Fin cfg0.N, (cfg0.win 4).flush t = true ∧ i ∈ ((cfg0.win 4).blk t).view.set := by
  have hi0 : (i 0).val < 400000 := (i 0).isLt
  have hi1 : (i 1).val < 128 := (i 1).isLt
  have hN : (i 0).val / 8000 < cfg0.N := by show _ < grid0.N; rw [N_0]; omega
  refine ⟨⟨(i 0).val / 8000, hN⟩, flush0_4 _, ?_⟩
  obtain ⟨-, -, -, -, -, -, -, -, h40, h41⟩ := idx ⟨(i 0).val / 8000, hN⟩
  rw [mem_blk]
  intro a
  match a with
  | ⟨0, _⟩ =>
    show win0_4.index ⟨(i 0).val / 8000, hN⟩ (0 : Fin 2) * 8000 ≤ (i 0).val
      ∧ (i 0).val < win0_4.index ⟨(i 0).val / 8000, hN⟩ (0 : Fin 2) * 8000 + 8000
    rw [h40]; show (i 0).val / 8000 * 8000 ≤ (i 0).val ∧ (i 0).val < (i 0).val / 8000 * 8000 + 8000; omega
  | ⟨1, _⟩ =>
    show win0_4.index ⟨(i 0).val / 8000, hN⟩ (1 : Fin 2) * 128 ≤ (i 1).val
      ∧ (i 1).val < win0_4.index ⟨(i 0).val / 8000, hN⟩ (1 : Fin 2) * 128 + 128
    rw [h41]; omega

/-- THE MESSAGE ARRAY after the region: `edgeMsg` of the region's four input arrays as it finds them. -/
theorem arr : (dat0 V c).arrAt 4 cfg0.N
    = edgeMsg (V c main_v22) (V c main_arg1) (V c main_v10) (V c main_v4) :=
  (dat0 V c).arrAt_eq_of_cover 4 _ (fun t _ => flushed V c t) cover

end Cert.KernelIdeal.Region0

end
-- ==== Proof.NodeBlock.lean ====
/-
  One block of node updates, at an entry, is the whole-array update at the entry the block's entry sits at.

  The node kernel adds a block of rows of the node features to the same rows of the aggregate, multiplies by the first
  weight matrix into a zero accumulator, adds the first bias row, clips at zero, multiplies by the second weight
  matrix, adds the second bias row and clips again; the changes of float format between the steps are the identity on
  the extended reals. Row `r` of the block depends only on row `r` of the two row-blocked inputs, so when those rows are
  rows `R` of the whole arrays the block's entry `(r, j)` is `nodeMlp` of the whole arrays at `(R, j)`.
-/
import proofs.«109877_j21148418966315_2_alg».proof.Proof.Layers

noncomputable section

open scoped BigOperators

namespace Cert.Gine

open Idealize.ShloMosaic Idealize.ShloMosaic.ValueIdx

theorem node_block {A p h q E : ℕ} (x0 x1 : FVec Ideal ⟨2, ![A, p]⟩ .f32) (x2 : FVec Ideal ⟨2, ![p, h]⟩ .bf16)
    (x3 : FVec Ideal ⟨2, ![1, h]⟩ .f32) (x4 : FVec Ideal ⟨2, ![h, q]⟩ .bf16) (x5 : FVec Ideal ⟨2, ![1, q]⟩ .f32)
    (X AG : Mat E p) (WA : Mat p h) (BA : Mat 1 h) (WB : Mat h q) (BB : Mat 1 q)
    (hb3 : (⟨2, ![1, h]⟩ : Shape).Broadcasts ⟨2, ![A, h]⟩) (hb5 : (⟨2, ![1, q]⟩ : Shape).Broadcasts ⟨2, ![A, q]⟩)
    (hlt : FTy.bf16.bits < FTy.f32.bits)
    (y : (⟨2, ![A, q]⟩ : Shape).Idx) (I : (⟨2, ![E, q]⟩ : Shape).Idx)
    (e0 : ∀ l : Fin p, x0 (ix2 (y 0 : Fin A) l) = X (ix2 (I 0 : Fin E) l))
    (e1 : ∀ l : Fin p, x1 (ix2 (y 0 : Fin A) l) = AG (ix2 (I 0 : Fin E) l))
    (e2 : x2 = WA) (e3 : x3 = BA) (e4 : x4 = WB) (e5 : x5 = BB) (hj : ((y 1 : Fin q)).val = ((I 1 : Fin q)).val) :
    maximumf (addf (FloatOps.matmul (DotDims.plain A h q) none
        (truncf .bf16 (maximumf (addf (FloatOps.matmul (DotDims.plain A p h) none (truncf .bf16 (addf x0 x1) hlt) x2
              (constant ⟨2, ![A, h]⟩ .f32 0x00000000#32)) (broadcastTo ⟨2, ![A, h]⟩ x3 hb3))
            (broadcast ⟨2, ![A, h]⟩ (Scalar.ofBits .f32 0x00000000#32))) hlt)
        x4 (constant ⟨2, ![A, q]⟩ .f32 0x00000000#32)) (broadcastTo ⟨2, ![A, q]⟩ x5 hb5))
      (broadcast ⟨2, ![A, q]⟩ (Scalar.ofBits .f32 0x00000000#32)) y
      = nodeMlp X AG WA BA WB BB I := by
  obtain ⟨r, j, rfl⟩ : ∃ (r : Fin A) (j : Fin q), y = ix2 r j := ⟨y 0, y 1, eq_ix2 y⟩
  obtain ⟨R, j', rfl⟩ : ∃ (R : Fin E) (j' : Fin q), I = ix2 R j' := ⟨I 0, I 1, eq_ix2 I⟩
  obtain rfl : j = j' := Fin.ext hj
  subst e2 e3 e4 e5
  rw [maximumf_apply, broadcast_apply, block_dense_at]
  unfold nodeMlp
  rw [dense_at]
  refine congrArg (fun s => max (s + x5 (ix2 (0 : Fin 1) j)) _) (Finset.sum_congr rfl fun k _ => ?_)
  refine congrArg (· * x4 (ix2 k j)) ?_
  rw [truncf_apply, maximumf_apply, broadcast_apply, block_dense_at]
  show _ = max (dense (fun w => X w + AG w) x2 x3 (ix2 R k)) zeroW
  rw [dense_at]
  refine congrArg (fun s => max (s + x3 (ix2 (0 : Fin 1) k)) _) (Finset.sum_congr rfl fun l _ => ?_)
  refine congrArg (· * x2 (ix2 l k)) ?_
  show x0 (ix2 r l) + x1 (ix2 r l) = X (ix2 R l) + AG (ix2 R l)
  exact congrArg₂ (· + ·) (e0 l) (e1 l)

end Cert.Gine

end
-- ==== Proof.Region1.lean ====
/-
  The first node kernel, from blocks to the whole array.

  The region walks 100 points; point `t` stages rows `2000·t … 2000·t + 1999` of the node features and of the aggregated
  messages, both weight matrices and both bias rows whole, and writes back rows `2000·t …` of the updated features. So
  what point `t` writes back is block `t` of ONE array function of the region's six input arrays — `nodeMlp` of them —,
  the 100 blocks tile the `[200000, 256]` result, and the result array after the region is that function.
-/
import proofs.«109877_j21148418966315_2_alg».proof.Proof.GenP.KernelIdeal.Frame
import proofs.«109877_j21148418966315_2_alg».proof.Proof.NodeBlock

set_option maxRecDepth 16384

noncomputable section

namespace Cert.KernelIdeal.Region1

open Cert.KernelIdeal Cert.KernelIdeal.Gen Cert.KernelIdeal.GenP Cert.Gine
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The printed index maps, decided over the 100 points: the row-blocked windows sit at block row `t`, column block 0;
    the weights and the bias rows are one block each. -/
theorem idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

set_option maxHeartbeats 1000000 in
/-- What point `t` writes back is block `t` of the update array of the region's inputs. -/
theorem flushed (t : Fin cfg1.N) :
    (dat1 V c).flushed 6 t = ((cfg1.win 6).blk t).view.read (Elt Ideal)
      (nodeMlp (V c main_arg0) (V c main_v27) (V c main_v12) (V c main_v5) (V c main_v13) (V c main_v6)) := by
  show (cfg1.win 6).cut (grid1.coords t) ((dat1 V c).after 6 t) = _
  rw [after1_6]
  unfold out1_6
  rw [View.canon_unit_zero hz]
  simp only [View.ld_unit_zero (S := S2000x128) hz, View.ld_unit_zero (S := S128x256) hz,
    View.ld_unit_zero (S := S1x256) hz, View.ld_unit_zero (S := S256x256) hz]
  obtain ⟨h00, h01, h10, h11, h20, h21, h30, h31, h40, h41, h50, h51, h60, h61⟩ := idx t
  funext y
  show (k1_pay1 (iblk1 V c 0 t) (iblk1 V c 1 t) (iblk1 V c 2 t) (iblk1 V c 3 t) (iblk1 V c 4 t) (iblk1 V c 5 t) : FVec Ideal S2000x256 .f32) y
    = nodeMlp (V c main_arg0) (V c main_v27) (V c main_v12) (V c main_v5) (V c main_v13) (V c main_v6)
        (((cfg1.win 6).blk t).view.emb y)
  unfold k1_pay1
  dsimp only
  rw [shapeCast_self, shapeCast_self, shapeCast_self, shapeCast_self, shapeCast_self]
  refine node_block (iblk1 V c 0 t) (iblk1 V c 1 t) (iblk1 V c 2 t) (iblk1 V c 3 t) (iblk1 V c 4 t) (iblk1 V c 5 t)
    (V c main_arg0) (V c main_v27) (V c main_v12) (V c main_v5) (V c main_v13) (V c main_v6) _ _ _
    y (((cfg1.win 6).blk t).view.emb y) ?_ ?_ ?_ ?_ ?_ ?_ ?_
  · intro l
    show V c main_arg0 (((cfg1.win 0).blk t).view.emb (ix2 (y 0 : Fin 2000) l))
      = V c main_arg0 (ix2 ((((cfg1.win 6).blk t).view.emb y) 0 : Fin 200000) l)
    refine congrArg (V c main_arg0) (funext fun a => Fin.ext ?_)
    match a with
    | ⟨0, _⟩ => show win1_0.index t (0 : Fin 2) * 2000 + 1 * (y 0).val = win1_6.index t (0 : Fin 2) * 2000 + 1 * (y 0).val; omega
    | ⟨1, _⟩ => show win1_0.index t (1 : Fin 2) * 128 + 1 * l.val = l.val; omega
  · intro l
    show V c main_v27 (((cfg1.win 1).blk t).view.emb (ix2 (y 0 : Fin 2000) l))
      = V c main_v27 (ix2 ((((cfg1.win 6).blk t).view.emb y) 0 : Fin 200000) l)
    refine congrArg (V c main_v27) (funext fun a => Fin.ext ?_)
    match a with
    | ⟨0, _⟩ => show win1_1.index t (0 : Fin 2) * 2000 + 1 * (y 0).val = win1_6.index t (0 : Fin 2) * 2000 + 1 * (y 0).val; omega
    | ⟨1, _⟩ => show win1_1.index t (1 : Fin 2) * 128 + 1 * l.val = l.val; omega
  · funext y'
    show V c main_v12 (((cfg1.win 2).blk t).view.emb y') = V c main_v12 y'
    refine congrArg (V c main_v12) (funext fun a => Fin.ext ?_)
    match a with
    | ⟨0, _⟩ => show win1_2.index t (0 : Fin 2) * 128 + 1 * (y' 0).val = (y' 0).val; omega
    | ⟨1, _⟩ => show win1_2.index t (1 : Fin 2) * 256 + 1 * (y' 1).val = (y' 1).val; omega
  · funext y'
    show V c main_v5 (((cfg1.win 3).blk t).view.emb y') = V c main_v5 y'
    refine congrArg (V c main_v5) (funext fun a => Fin.ext ?_)
    match a with
    | ⟨0, _⟩ => show win1_3.index t (0 : Fin 2) * 1 + 1 * (y' 0).val = (y' 0).val; omega
    | ⟨1, _⟩ => show win1_3.index t (1 : Fin 2) * 256 + 1 * (y' 1).val = (y' 1).val; omega
  · funext y'
    show V c main_v13 (((cfg1.win 4).blk t).view.emb y') = V c main_v13 y'
    refine congrArg (V c main_v13) (funext fun a => Fin.ext ?_)
    match a with
    | ⟨0, _⟩ => show win1_4.index t (0 : Fin 2) * 256 + 1 * (y' 0).val = (y' 0).val; omega
    | ⟨1, _⟩ => show win1_4.index t (1 : Fin 2) * 256 + 1 * (y' 1).val = (y' 1).val; omega
  · funext y'
    show V c main_v6 (((cfg1.win 5).blk t).view.emb y') = V c main_v6 y'
    refine congrArg (V c main_v6) (funext fun a => Fin.ext ?_)
    match a with
    | ⟨0, _⟩ => show win1_5.index t (0 : Fin 2) * 1 + 1 * (y' 0).val = (y' 0).val; omega
    | ⟨1, _⟩ => show win1_5.index t (1 : Fin 2) * 256 + 1 * (y' 1).val = (y' 1).val; omega
  · show (y 1).val = win1_6.index t (1 : Fin 2) * 256 + 1 * (y 1).val; omega

/-- An index of the result array is in point `t`'s block iff each coordinate is in the block's range on its axis. -/
theorem mem_blk (t : Fin cfg1.N) (i : S200000x256.Idx) :
    i ∈ ((cfg1.win 6).blk t).view.set ↔ ∀ a : Fin 2, win1_6.index t a * S2000x256.size a ≤ (i a).val
      ∧ (i a).val < win1_6.index t a * S2000x256.size a + S2000x256.size a := by
  show i ∈ ((View.whole main_v28).slice (win1_6.rect t)).set ↔ _
  rw [View.set_slice_whole, Rect.mem_set_unit]
  exact Iff.rfl

/-- Every row of the result is in the block of the point its row number divided by 2000 names. -/
theorem cover (i : S200000x256.Idx) :
    ∃ t : Fin cfg1.N, (cfg1.win 6).flush t = true ∧ i ∈ ((cfg1.win 6).blk t).view.set := by
  have hi0 : (i 0).val < 200000 := (i 0).isLt
  have hi1 : (i 1).val < 256 := (i 1).isLt
  have hN : (i 0).val / 2000 < cfg1.N := by show _ < grid1.N; rw [N_1]; omega
  refine ⟨⟨(i 0).val / 2000, hN⟩, flush1_6 _, ?_⟩
  obtain ⟨-, -, -, -, -, -, -, -, -, -, -, -, h60, h61⟩ := idx ⟨(i 0).val / 2000, hN⟩
  rw [mem_blk]
  intro a
  match a with
  | ⟨0, _⟩ =>
    show win1_6.index ⟨(i 0).val / 2000, hN⟩ (0 : Fin 2) * 2000 ≤ (i 0).val
      ∧ (i 0).val < win1_6.index ⟨(i 0).val / 2000, hN⟩ (0 : Fin 2) * 2000 + 2000
    rw [h60]; show (i 0).val / 2000 * 2000 ≤ (i 0).val ∧ (i 0).val < (i 0).val / 2000 * 2000 + 2000; omega
  | ⟨1, _⟩ =>
    show win1_6.index ⟨(i 0).val / 2000, hN⟩ (1 : Fin 2) * 256 ≤ (i 1).val
      ∧ (i 1).val < win1_6.index ⟨(i 0).val / 2000, hN⟩ (1 : Fin 2) * 256 + 256
    rw [h61]; omega

/-- THE UPDATED FEATURES after the region: `nodeMlp` of the region's six input arrays as it finds them. -/
theorem arr : (dat1 V c).arrAt 6 cfg1.N
    = nodeMlp (V c main_arg0) (V c main_v27) (V c main_v12) (V c main_v5) (V c main_v13) (V c main_v6) :=
  (dat1 V c).arrAt_eq_of_cover 6 _ (fun t _ => flushed V c t) cover

end Cert.KernelIdeal.Region1

end
-- ==== Proof.Region2.lean ====
/-
  The second edge kernel, from blocks to the whole array.

  The region walks 100 points; point `t` stages rows `4000·t … 4000·t + 3999` of the gathered source rows and of the edge
  attributes, the whole weight matrix and the whole bias row, and writes back rows `4000·t …` of the messages. So what
  point `t` writes back is block `t` of ONE array function of the region's four input arrays — `edgeMsg` of them —, the
  100 blocks tile the `[400000, 256]` result, and the result array after the region is that function, whatever the
  inputs hold when the region is entered.
-/
import proofs.«109877_j21148418966315_2_alg».proof.Proof.GenP.KernelIdeal.Frame
import proofs.«109877_j21148418966315_2_alg».proof.Proof.Layers

set_option maxRecDepth 16384

noncomputable section

namespace Cert.KernelIdeal.Region2

open Cert.KernelIdeal Cert.KernelIdeal.Gen Cert.KernelIdeal.GenP Cert.Gine
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The printed index maps, decided over the 100 points: the row-blocked windows sit at block row `t`, column block 0;
    the weights and the bias row are one block. -/
theorem idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point `t` writes back is block `t` of the message array of the region's inputs. -/
theorem flushed (t : Fin cfg2.N) :
    (dat2 V c).flushed 4 t = ((cfg2.win 4).blk t).view.read (Elt Ideal)
      (edgeMsg (V c main_v35) (V c main_arg1) (V c main_v11) (V c main_v7)) := by
  show (cfg2.win 4).cut (grid2.coords t) ((dat2 V c).after 4 t) = _
  rw [after2_4]
  unfold out2_4
  rw [View.canon_unit_zero hz]
  simp only [View.ld_unit_zero (S := S4000x16) hz, View.ld_unit_zero (S := S16x256) hz,
    View.ld_unit_zero (S := S1x256) hz, View.ld_unit_zero (S := S4000x256) hz]
  obtain ⟨h00, h01, h10, h11, h20, h21, h30, h31, h40, h41⟩ := idx t
  funext y
  show (k2_pay1 (iblk2 V c 1 t) (iblk2 V c 2 t) (iblk2 V c 3 t) (iblk2 V c 0 t) : FVec Ideal S4000x256 .bf16) y
    = edgeMsg (V c main_v35) (V c main_arg1) (V c main_v11) (V c main_v7) (((cfg2.win 4).blk t).view.emb y)
  unfold k2_pay1
  dsimp only
  rw [shapeCast_self, shapeCast_self, shapeCast_self]
  refine edge_block (iblk2 V c 0 t) (iblk2 V c 1 t) (iblk2 V c 2 t) (iblk2 V c 3 t)
    (V c main_v35) (V c main_arg1) (V c main_v11) (V c main_v7) _ _ y (((cfg2.win 4).blk t).view.emb y) ?_ ?_ ?_ ?_ ?_
  · show V c main_v35 (((cfg2.win 0).blk t).view.emb y) = V c main_v35 (((cfg2.win 4).blk t).view.emb y)
    refine congrArg (V c main_v35) (funext fun a => Fin.ext ?_)
    match a with
    | ⟨0, _⟩ => show win2_0.index t (0 : Fin 2) * 4000 + 1 * (y 0).val = win2_4.index t (0 : Fin 2) * 4000 + 1 * (y 0).val; omega
    | ⟨1, _⟩ => show win2_0.index t (1 : Fin 2) * 256 + 1 * (y 1).val = win2_4.index t (1 : Fin 2) * 256 + 1 * (y 1).val; omega
  · intro k
    show V c main_arg1 (((cfg2.win 1).blk t).view.emb (ix2 (y 0 : Fin 4000) k))
      = V c main_arg1 (ix2 ((((cfg2.win 4).blk t).view.emb y) 0 : Fin 400000) k)
    refine congrArg (V c main_arg1) (funext fun a => Fin.ext ?_)
    match a with
    | ⟨0, _⟩ => show win2_1.index t (0 : Fin 2) * 4000 + 1 * (y 0).val = win2_4.index t (0 : Fin 2) * 4000 + 1 * (y 0).val; omega
    | ⟨1, _⟩ => show win2_1.index t (1 : Fin 2) * 16 + 1 * k.val = k.val; omega
  · funext y'
    show V c main_v11 (((cfg2.win 2).blk t).view.emb y') = V c main_v11 y'
    refine congrArg (V c main_v11) (funext fun a => Fin.ext ?_)
    match a with
    | ⟨0, _⟩ => show win2_2.index t (0 : Fin 2) * 16 + 1 * (y' 0).val = (y' 0).val; omega
    | ⟨1, _⟩ => show win2_2.index t (1 : Fin 2) * 256 + 1 * (y' 1).val = (y' 1).val; omega
  · funext y'
    show V c main_v7 (((cfg2.win 3).blk t).view.emb y') = V c main_v7 y'
    refine congrArg (V c main_v7) (funext fun a => Fin.ext ?_)
    match a with
    | ⟨0, _⟩ => show win2_3.index t (0 : Fin 2) * 1 + 1 * (y' 0).val = (y' 0).val; omega
    | ⟨1, _⟩ => show win2_3.index t (1 : Fin 2) * 256 + 1 * (y' 1).val = (y' 1).val; omega
  · show (y 1).val = win2_4.index t (1 : Fin 2) * 256 + 1 * (y 1).val; omega

/-- An index of the result array is in point `t`'s block iff each coordinate is in the block's range on its axis. -/
theorem mem_blk (t : Fin cfg2.N) (i : S400000x256.Idx) :
    i ∈ ((cfg2.win 4).blk t).view.set ↔ ∀ a : Fin 2, win2_4.index t a * S4000x256.size a ≤ (i a).val
      ∧ (i a).val < win2_4.index t a * S4000x256.size a + S4000x256.size a := by
  show i ∈ ((View.whole main_v36).slice (win2_4.rect t)).set ↔ _
  rw [View.set_slice_whole, Rect.mem_set_unit]
  exact Iff.rfl

/-- Every row of the result is in the block of the point its row number divided by 4000 names. -/
theorem cover (i : S400000x256.Idx) :
    ∃ t : Fin cfg2.N, (cfg2.win 4).flush t = true ∧ i ∈ ((cfg2.win 4).blk t).view.set := by
  have hi0 : (i 0).val < 400000 := (i 0).isLt
  have hi1 : (i 1).val < 256 := (i 1).isLt
  have hN : (i 0).val / 4000 < cfg2.N := by show _ < grid2.N; rw [N_2]; omega
  refine ⟨⟨(i 0).val / 4000, hN⟩, flush2_4 _, ?_⟩
  obtain ⟨-, -, -, -, -, -, -, -, h40, h41⟩ := idx ⟨(i 0).val / 4000, hN⟩
  rw [mem_blk]
  intro a
  match a with
  | ⟨0, _⟩ =>
    show win2_4.index ⟨(i 0).val / 4000, hN⟩ (0 : Fin 2) * 4000 ≤ (i 0).val
      ∧ (i 0).val < win2_4.index ⟨(i 0).val / 4000, hN⟩ (0 : Fin 2) * 4000 + 4000
    rw [h40]; show (i 0).val / 4000 * 4000 ≤ (i 0).val ∧ (i 0).val < (i 0).val / 4000 * 4000 + 4000; omega
  | ⟨1, _⟩ =>
    show win2_4.index ⟨(i 0).val / 4000, hN⟩ (1 : Fin 2) * 256 ≤ (i 1).val
      ∧ (i 1).val < win2_4.index ⟨(i 0).val / 4000, hN⟩ (1 : Fin 2) * 256 + 256
    rw [h41]; omega

/-- THE MESSAGE ARRAY after the region: `edgeMsg` of the region's four input arrays as it finds them. -/
theorem arr : (dat2 V c).arrAt 4 cfg2.N
    = edgeMsg (V c main_v35) (V c main_arg1) (V c main_v11) (V c main_v7) :=
  (dat2 V c).arrAt_eq_of_cover 4 _ (fun t _ => flushed V c t) cover

end Cert.KernelIdeal.Region2

end
-- ==== Proof.Region3.lean ====
/-
  The second node kernel, from blocks to the whole array.

  The region walks 100 points; point `t` stages rows `2000·t … 2000·t + 1999` of the first layer's features and of the aggregated
  second-layer messages, both weight matrices and both bias rows whole, and writes back rows `2000·t …` of the updated features. So
  what point `t` writes back is block `t` of ONE array function of the region's six input arrays — `nodeMlp` of them —,
  the 100 blocks tile the `[200000, 256]` result, and the result array after the region is that function.
-/
import proofs.«109877_j21148418966315_2_alg».proof.Proof.GenP.KernelIdeal.Frame
import proofs.«109877_j21148418966315_2_alg».proof.Proof.NodeBlock

set_option maxRecDepth 16384

noncomputable section

namespace Cert.KernelIdeal.Region3

open Cert.KernelIdeal Cert.KernelIdeal.Gen Cert.KernelIdeal.GenP Cert.Gine
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The printed index maps, decided over the 100 points: the row-blocked windows sit at block row `t`, column block 0;
    the weights and the bias rows are one block each. -/
theorem idx : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

set_option maxHeartbeats 1000000 in
/-- What point `t` writes back is block `t` of the update array of the region's inputs. -/
theorem flushed (t : Fin cfg3.N) :
    (dat3 V c).flushed 6 t = ((cfg3.win 6).blk t).view.read (Elt Ideal)
      (nodeMlp (V c main_v28) (V c main_v40) (V c main_v14) (V c main_v8) (V c main_v15) (V c main_v9)) := by
  show (cfg3.win 6).cut (grid3.coords t) ((dat3 V c).after 6 t) = _
  rw [after3_6]
  unfold out3_6
  rw [View.canon_unit_zero hz]
  simp only [View.ld_unit_zero (S := S2000x256) hz, View.ld_unit_zero (S := S256x256) hz,
    View.ld_unit_zero (S := S1x256) hz, View.ld_unit_zero (S := S256x256) hz]
  obtain ⟨h00, h01, h10, h11, h20, h21, h30, h31, h40, h41, h50, h51, h60, h61⟩ := idx t
  funext y
  show (k3_pay1 (iblk3 V c 0 t) (iblk3 V c 1 t) (iblk3 V c 2 t) (iblk3 V c 3 t) (iblk3 V c 4 t) (iblk3 V c 5 t) : FVec Ideal S2000x256 .f32) y
    = nodeMlp (V c main_v28) (V c main_v40) (V c main_v14) (V c main_v8) (V c main_v15) (V c main_v9)
        (((cfg3.win 6).blk t).view.emb y)
  unfold k3_pay1
  dsimp only
  rw [shapeCast_self, shapeCast_self, shapeCast_self, shapeCast_self, shapeCast_self, shapeCast_self]
  refine node_block (iblk3 V c 0 t) (iblk3 V c 1 t) (iblk3 V c 2 t) (iblk3 V c 3 t) (iblk3 V c 4 t) (iblk3 V c 5 t)
    (V c main_v28) (V c main_v40) (V c main_v14) (V c main_v8) (V c main_v15) (V c main_v9) _ _ _
    y (((cfg3.win 6).blk t).view.emb y) ?_ ?_ ?_ ?_ ?_ ?_ ?_
  · intro l
    show V c main_v28 (((cfg3.win 0).blk t).view.emb (ix2 (y 0 : Fin 2000) l))
      = V c main_v28 (ix2 ((((cfg3.win 6).blk t).view.emb y) 0 : Fin 200000) l)
    refine congrArg (V c main_v28) (funext fun a => Fin.ext ?_)
    match a with
    | ⟨0, _⟩ => show win3_0.index t (0 : Fin 2) * 2000 + 1 * (y 0).val = win3_6.index t (0 : Fin 2) * 2000 + 1 * (y 0).val; omega
    | ⟨1, _⟩ => show win3_0.index t (1 : Fin 2) * 256 + 1 * l.val = l.val; omega
  · intro l
    show V c main_v40 (((cfg3.win 1).blk t).view.emb (ix2 (y 0 : Fin 2000) l))
      = V c main_v40 (ix2 ((((cfg3.win 6).blk t).view.emb y) 0 : Fin 200000) l)
    refine congrArg (V c main_v40) (funext fun a => Fin.ext ?_)
    match a with
    | ⟨0, _⟩ => show win3_1.index t (0 : Fin 2) * 2000 + 1 * (y 0).val = win3_6.index t (0 : Fin 2) * 2000 + 1 * (y 0).val; omega
    | ⟨1, _⟩ => show win3_1.index t (1 : Fin 2) * 256 + 1 * l.val = l.val; omega
  · funext y'
    show V c main_v14 (((cfg3.win 2).blk t).view.emb y') = V c main_v14 y'
    refine congrArg (V c main_v14) (funext fun a => Fin.ext ?_)
    match a with
    | ⟨0, _⟩ => show win3_2.index t (0 : Fin 2) * 256 + 1 * (y' 0).val = (y' 0).val; omega
    | ⟨1, _⟩ => show win3_2.index t (1 : Fin 2) * 256 + 1 * (y' 1).val = (y' 1).val; omega
  · funext y'
    show V c main_v8 (((cfg3.win 3).blk t).view.emb y') = V c main_v8 y'
    refine congrArg (V c main_v8) (funext fun a => Fin.ext ?_)
    match a with
    | ⟨0, _⟩ => show win3_3.index t (0 : Fin 2) * 1 + 1 * (y' 0).val = (y' 0).val; omega
    | ⟨1, _⟩ => show win3_3.index t (1 : Fin 2) * 256 + 1 * (y' 1).val = (y' 1).val; omega
  · funext y'
    show V c main_v15 (((cfg3.win 4).blk t).view.emb y') = V c main_v15 y'
    refine congrArg (V c main_v15) (funext fun a => Fin.ext ?_)
    match a with
    | ⟨0, _⟩ => show win3_4.index t (0 : Fin 2) * 256 + 1 * (y' 0).val = (y' 0).val; omega
    | ⟨1, _⟩ => show win3_4.index t (1 : Fin 2) * 256 + 1 * (y' 1).val = (y' 1).val; omega
  · funext y'
    show V c main_v9 (((cfg3.win 5).blk t).view.emb y') = V c main_v9 y'
    refine congrArg (V c main_v9) (funext fun a => Fin.ext ?_)
    match a with
    | ⟨0, _⟩ => show win3_5.index t (0 : Fin 2) * 1 + 1 * (y' 0).val = (y' 0).val; omega
    | ⟨1, _⟩ => show win3_5.index t (1 : Fin 2) * 256 + 1 * (y' 1).val = (y' 1).val; omega
  · show (y 1).val = win3_6.index t (1 : Fin 2) * 256 + 1 * (y 1).val; omega

/-- An index of the result array is in point `t`'s block iff each coordinate is in the block's range on its axis. -/
theorem mem_blk (t : Fin cfg3.N) (i : S200000x256.Idx) :
    i ∈ ((cfg3.win 6).blk t).view.set ↔ ∀ a : Fin 2, win3_6.index t a * S2000x256.size a ≤ (i a).val
      ∧ (i a).val < win3_6.index t a * S2000x256.size a + S2000x256.size a := by
  show i ∈ ((View.whole main_v41).slice (win3_6.rect t)).set ↔ _
  rw [View.set_slice_whole, Rect.mem_set_unit]
  exact Iff.rfl

/-- Every row of the result is in the block of the point its row number divided by 2000 names. -/
theorem cover (i : S200000x256.Idx) :
    ∃ t : Fin cfg3.N, (cfg3.win 6).flush t = true ∧ i ∈ ((cfg3.win 6).blk t).view.set := by
  have hi0 : (i 0).val < 200000 := (i 0).isLt
  have hi1 : (i 1).val < 256 := (i 1).isLt
  have hN : (i 0).val / 2000 < cfg3.N := by show _ < grid3.N; rw [N_3]; omega
  refine ⟨⟨(i 0).val / 2000, hN⟩, flush3_6 _, ?_⟩
  obtain ⟨-, -, -, -, -, -, -, -, -, -, -, -, h60, h61⟩ := idx ⟨(i 0).val / 2000, hN⟩
  rw [mem_blk]
  intro a
  match a with
  | ⟨0, _⟩ =>
    show win3_6.index ⟨(i 0).val / 2000, hN⟩ (0 : Fin 2) * 2000 ≤ (i 0).val
      ∧ (i 0).val < win3_6.index ⟨(i 0).val / 2000, hN⟩ (0 : Fin 2) * 2000 + 2000
    rw [h60]; show (i 0).val / 2000 * 2000 ≤ (i 0).val ∧ (i 0).val < (i 0).val / 2000 * 2000 + 2000; omega
  | ⟨1, _⟩ =>
    show win3_6.index ⟨(i 0).val / 2000, hN⟩ (1 : Fin 2) * 256 ≤ (i 1).val
      ∧ (i 1).val < win3_6.index ⟨(i 0).val / 2000, hN⟩ (1 : Fin 2) * 256 + 256
    rw [h61]; omega

/-- THE UPDATED FEATURES after the region: `nodeMlp` of the region's six input arrays as it finds them. -/
theorem arr : (dat3 V c).arrAt 6 cfg3.N
    = nodeMlp (V c main_v28) (V c main_v40) (V c main_v14) (V c main_v8) (V c main_v15) (V c main_v9) :=
  (dat3 V c).arrAt_eq_of_cover 6 _ (fun t _ => flushed V c t) cover

end Cert.KernelIdeal.Region3

end
-- ==== Proof.Walk.lean ====
/-
  The idealized kernel's result, read through its nine segments.

  The buffer contents at the segment boundaries are a fold: a host stretch applies its operations, a region replaces its
  output array by what its write-backs leave and keeps every other buffer. Reading the fold at a buffer walks it back:
  through a host stretch to the operation that wrote it (or past the stretch if none did), through a region past it
  (unless the buffer is one of the region's arrays). The walk ends at the launch memory, so each boundary value is a
  term over the argument arrays.

  The four regions' output arrays are `edgeMsg` / `nodeMlp` of their input arrays (the blocks-to-array lemmas), and
  the reference's stage functions are the same functions of the same arrays (its stage lemmas). Between the regions both
  programs apply the same host operations — the gather by the source index, the scatter-add by the destination index,
  the mean over each graph at the end — to arrays already shown equal. Stage by stage, then, each boundary value of the
  kernel's program IS the reference's stage function of the argument arrays; the last one is the result.
-/
import proofs.«109877_j21148418966315_2_alg».proof.Proof.GenP.KernelIdeal.Frame
import proofs.«109877_j21148418966315_2_alg».proof.Proof.Gen.ReferenceIdeal.Read
import proofs.«109877_j21148418966315_2_alg».proof.Proof.HostForms
import proofs.«109877_j21148418966315_2_alg».proof.Proof.RefStages
import proofs.«109877_j21148418966315_2_alg».proof.Proof.Region0
import proofs.«109877_j21148418966315_2_alg».proof.Proof.Region1
import proofs.«109877_j21148418966315_2_alg».proof.Proof.Region2
import proofs.«109877_j21148418966315_2_alg».proof.Proof.Region3

set_option maxRecDepth 16384

noncomputable section

namespace Cert.KernelIdeal.Walk

open Cert.KernelIdeal Cert.KernelIdeal.Gen Cert.KernelIdeal.GenP Cert.Gine
open Idealize.ShloMosaic Idealize.ShloMosaic.TcCoe Idealize.ShloMosaic.ValueIdx Idealize.SL.Sem Idealize.ShloMosaic.StableHlo
open Cert.ReferenceIdeal.Read (val_main_v5 val_main_v14 val_main_v16 val_main_v19 val_main_v22 val_main_v27 val_main_v30
  val_main_v32 val_main_v41 val_main_v43 val_main_v46 val_main_v49 val_main_v54 val_main_v57 val_main_v69)

variable (m : (ℓ : Loc nD τ sig) → Buf (Elt Ideal) ℓ) (ρ : Dev nD → PrngReg) (c : Dev nD)

/-! ## Past a region: a buffer that is none of the region's arrays keeps its contents -/

theorem W2_keep (b : Ref sig .tc) (hb : ∀ w, Pipeline.arrRef spec0 w ≠ b) :
    W2 m ρ c (no_index (Proc.devRef .tc b)) = W1 m ρ c (Proc.devRef .tc b) := W2_of_ne m ρ c b hb
theorem W4_keep (b : Ref sig .tc) (hb : ∀ w, Pipeline.arrRef spec1 w ≠ b) :
    W4 m ρ c (no_index (Proc.devRef .tc b)) = W3 m ρ c (Proc.devRef .tc b) := W4_of_ne m ρ c b hb
theorem W6_keep (b : Ref sig .tc) (hb : ∀ w, Pipeline.arrRef spec2 w ≠ b) :
    W6 m ρ c (no_index (Proc.devRef .tc b)) = W5 m ρ c (Proc.devRef .tc b) := W6_of_ne m ρ c b hb
theorem W8_keep (b : Ref sig .tc) (hb : ∀ w, Pipeline.arrRef spec3 w ≠ b) :
    W8 m ρ c (no_index (Proc.devRef .tc b)) = W7 m ρ c (Proc.devRef .tc b) := W8_of_ne m ρ c b hb

/-- Walks a boundary value back through the host stretches (to the operation that wrote the buffer, or past the
    stretch) and past the regions whose arrays the buffer is not among. -/
macro "walk" : tactic =>
  `(tactic| simp (disch := decide) only [V1, V3, V5, V7, W1, W3, W5, W7, W9, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', W2_keep, W4_keep, W6_keep, W8_keep])

/-- The edge attributes are an input array of the first edge region: it leaves them as it found them, at their launch
    contents. -/
theorem edgeAttr_after_region0 : W2 m ρ c (Proc.devRef .tc main_arg1) = (m ((c : Thread nD τ).loc main_arg1)) :=
  (W2_arr m ρ c 1).trans (((dat0 (V1 m ρ) c).arrAt_in 1 rfl _).trans ((A_eq0 (V1 m ρ) c 1).trans (by
    show V1 m ρ c main_arg1 = _
    walk)))

/-! ## The stages -/

/-- After the first edge region: the first layer's messages. -/
theorem msg1 : W2 m ρ c (Proc.devRef .tc main_v23) = val_main_v16 (F := Ideal) (m ((c : Thread nD τ).loc main_arg0)) (m ((c : Thread nD τ).loc main_arg1)) (m ((c : Thread nD τ).loc main_arg2)) (m ((c : Thread nD τ).loc main_arg3)) (m ((c : Thread nD τ).loc main_arg14)) := by
  refine (W2_arr m ρ c 4).trans ?_
  rw [Region0.arr (V1 m ρ) c, Cert.ReferenceIdeal.Stages.msg1]
  have e0 : V1 m ρ c main_v22 = val_main_v14 (F := Ideal) (m ((c : Thread nD τ).loc main_arg0)) (m ((c : Thread nD τ).loc main_arg14)) := by walk; rfl
  have e1 : V1 m ρ c main_arg1 = (m ((c : Thread nD τ).loc main_arg1)) := by walk
  have e2 : V1 m ρ c main_v10 = (m ((c : Thread nD τ).loc main_arg2)) := by walk; rfl
  have e3 : V1 m ρ c main_v4 = val_main_v5 (F := Ideal) (m ((c : Thread nD τ).loc main_arg3)) := by
    walk; unfold val_main_v5; exact row_cast_eq_bcast _ _ ![1] rfl _
  rw [e0, e1, e2, e3]

/-- After the scatter-add by destination: the first layer's aggregate. -/
theorem aggr1 : W3 m ρ c (Proc.devRef .tc main_v27) = val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg14)) := by
  walk
  rw [msg1 m ρ c]
  rfl

/-- After the first node region: the first layer's features. -/
theorem upd1 : W4 m ρ c (Proc.devRef .tc main_v28) = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg14)) := by
  refine (W4_arr m ρ c 6).trans ?_
  rw [Region1.arr (V3 m ρ) c, Cert.ReferenceIdeal.Stages.upd1]
  have e0 : V3 m ρ c main_arg0 = (m ((c : Thread nD τ).loc main_arg0)) := by walk
  have e1 : V3 m ρ c main_v27 = val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg14)) := aggr1 m ρ c
  have e2 : V3 m ρ c main_v12 = (m ((c : Thread nD τ).loc main_arg4)) := by walk; rfl
  have e3 : V3 m ρ c main_v5 = val_main_v22 (F := Ideal) (m ((c : Thread nD τ).loc main_arg5)) := by
    walk; unfold val_main_v22; exact row_cast_eq_bcast _ _ ![1] rfl _
  have e4 : V3 m ρ c main_v13 = (m ((c : Thread nD τ).loc main_arg6)) := by walk; rfl
  have e5 : V3 m ρ c main_v6 = val_main_v27 (F := Ideal) (m ((c : Thread nD τ).loc main_arg7)) := by
    walk; unfold val_main_v27; exact row_cast_eq_bcast _ _ ![1] rfl _
  rw [e0, e1, e2, e3, e4, e5]

/-- After the gather by source of the first layer's features. -/
theorem src2 : W5 m ρ c (Proc.devRef .tc main_v35) = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg14)) := by
  walk
  rw [upd1 m ρ c]
  rfl

/-- After the second edge region: the second layer's messages. -/
theorem msg2 : W6 m ρ c (Proc.devRef .tc main_v36) = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg14)) := by
  refine (W6_arr m ρ c 4).trans ?_
  rw [Region2.arr (V5 m ρ) c, Cert.ReferenceIdeal.Stages.msg2]
  have e0 : V5 m ρ c main_v35 = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg14)) := src2 m ρ c
  have e1 : V5 m ρ c main_arg1 = (m ((c : Thread nD τ).loc main_arg1)) := by walk; exact edgeAttr_after_region0 m ρ c
  have e2 : V5 m ρ c main_v11 = (m ((c : Thread nD τ).loc main_arg8)) := by walk; rfl
  have e3 : V5 m ρ c main_v7 = val_main_v32 (F := Ideal) (m ((c : Thread nD τ).loc main_arg9)) := by
    walk; unfold val_main_v32; exact row_cast_eq_bcast _ _ ![1] rfl _
  rw [e0, e1, e2, e3]

/-- After the scatter-add by destination: the second layer's aggregate. -/
theorem aggr2 : W7 m ρ c (Proc.devRef .tc main_v40) = val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg14)) := by
  walk
  rw [msg2 m ρ c]
  rfl

/-- After the second node region: the second layer's features. -/
theorem upd2 : W8 m ρ c (Proc.devRef .tc main_v41) = val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W8_arr m ρ c 6).trans ?_
  rw [Region3.arr (V7 m ρ) c, Cert.ReferenceIdeal.Stages.upd2]
  have e0 : V7 m ρ c main_v28 = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg14)) := by walk; exact upd1 m ρ c
  have e1 : V7 m ρ c main_v40 = val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg14)) := aggr2 m ρ c
  have e2 : V7 m ρ c main_v14 = (m ((c : Thread nD τ).loc main_arg10)) := by walk; rfl
  have e3 : V7 m ρ c main_v8 = val_main_v49 (F := Ideal) (m ((c : Thread nD τ).loc main_arg11)) := by
    walk; unfold val_main_v49; exact row_cast_eq_bcast _ _ ![1] rfl _
  have e4 : V7 m ρ c main_v15 = (m ((c : Thread nD τ).loc main_arg12)) := by walk; rfl
  have e5 : V7 m ρ c main_v9 = val_main_v54 (F := Ideal) (m ((c : Thread nD τ).loc main_arg13)) := by
    walk; unfold val_main_v54; exact row_cast_eq_bcast _ _ ![1] rfl _
  rw [e0, e1, e2, e3, e4, e5]

/-- THE RESULT: the mean over each graph of the second layer's features — the reference's last stage function of the
    argument arrays. -/
theorem result : W9 m ρ c (Proc.devRef .tc main_v53) = val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  walk
  rw [upd2 m ρ c]
  rfl

end Cert.KernelIdeal.Walk

end
-- ==== Proof.lean ====
/-
  The certificate of a two-layer edge-conditioned graph network with a mean pool: the pipelined kernel program against
  the plain array program, equal on the extended reals.

  Each layer forms, for every edge, the message `max(x[src] + (edge_attr · We + be), 0)`, adds the messages into their
  destination nodes, and updates every node by `max(max((x + aggr) · Wa + ba, 0) · Wb + bb, 0)`; the result is the mean
  of the second layer's features over each graph. The kernel program computes the messages and the node updates in four
  pipelined regions, a block of rows at a time, with the weights kept in a narrower float format; the gather, the two
  scatter-adds and the mean are host operations in both programs. On the extended reals a change of float format is
  the identity and a matrix product into a zero accumulator is the plain sum over the contracted index, so each region's
  output array is the same function of its input arrays as the reference's stage (`edgeMsg`, `nodeMlp`), block by block
  and hence as a whole; the host operations between them are the same operations of equal arrays. No step moves a
  factor across a sum or cancels anything, so finiteness of the inputs is never used.

  The three frames: both kernel programs' from the frame proofs generated for them, the reference's from its generated
  run. The idealization rewrote no operation, so `preserves` is trivial.
-/
import proofs.«109877_j21148418966315_2_alg».proof.Defs
import proofs.«109877_j21148418966315_2_alg».proof.Proof.Gen.Kernel
import proofs.«109877_j21148418966315_2_alg».proof.Proof.Gen.KernelIdeal
import proofs.«109877_j21148418966315_2_alg».proof.Proof.Gen.ReferenceIdeal
import proofs.«109877_j21148418966315_2_alg».proof.Proof.Gen.ReferenceIdeal.Run
import proofs.«109877_j21148418966315_2_alg».proof.Proof.Gen.ReferenceIdeal.Read
import proofs.«109877_j21148418966315_2_alg».proof.Proof.Gen.Pre_finite_inputs
import proofs.«109877_j21148418966315_2_alg».proof.Proof.GenP.Kernel.Frame
import proofs.«109877_j21148418966315_2_alg».proof.Proof.GenP.KernelIdeal.Frame
import proofs.«109877_j21148418966315_2_alg».proof.Proof.KernelRun
import proofs.«109877_j21148418966315_2_alg».proof.Proof.Walk
import Idealize.ShloMosaic.Adequacy
import Idealize.ShloMosaic.Init

noncomputable section

namespace Cert.Proof

open Idealize.ShloMosaic Idealize.SL.Sem

theorem frame_kernel : Cert.frame_Kernel := fun m ρ _ => Cert.Kernel.GenP.frame m ρ

theorem frame_kernelIdeal : Cert.frame_KernelIdeal := fun m ρ _ => Cert.KernelIdeal.GenP.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's last stage function of the (agreeing) argument arrays in their result
    buffer: the kernel's by its run read through the nine segments, the reference's by its generated run. -/
theorem algebraic : Cert.algebraic_KernelIdeal_ReferenceIdeal := by
  intro m ρ m' ρ' _ hagree
  refine ⟨fun c => Cert.ReferenceIdeal.Read.val_main_v69 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.Walk.result m ρ c), (h c).2⟩)
      (Cert.KernelIdeal.Whole.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15⟩ := hagree c
    rw [Cert.ReferenceIdeal.Read.val_main_v69_eq, h0, h1, h2, h3, h4, h5, h6, h7, h8, h9, h10, h11, h12, h13, h14, h15]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
